-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x500000 32) (main_arg2 : FVec F S256x128 .f32) (main_arg3 : FVec F S128 .f32) (main_arg4 : FVec F S128x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S50000x128 : Shape := ⟨2, ![50000, 128]⟩
abbrev S5000x256 : Shape := ⟨2, ![5000, 256]⟩
abbrev S5000x128 : Shape := ⟨2, ![5000, 128]⟩
abbrev S500000x128 : Shape := ⟨2, ![500000, 128]⟩
abbrev S1x128 : Shape := ⟨2, ![1, 128]⟩
abbrev S50000x64 : Shape := ⟨2, ![50000, 64]⟩
abbrev S5000x64 : Shape := ⟨2, ![5000, 64]⟩
abbrev S500000x64 : Shape := ⟨2, ![500000, 64]⟩
abbrev S1x64 : Shape := ⟨2, ![1, 64]⟩

abbrev nBuf : Space → Nat
  | .hbm => 95
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .f32⟩
  | .hbm, ⟨11, _⟩ => ⟨S500000, .f32⟩
  | .hbm, ⟨12, _⟩ => ⟨S_, .f32⟩
  | .hbm, ⟨13, _⟩ => ⟨S50000, .f32⟩
  | .hbm, ⟨14, _⟩ => ⟨S500000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000, .f32⟩
  | .hbm, ⟨48, _⟩ => ⟨S500000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x128, .f32⟩
  | .hbm, ⟨61, _⟩ => ⟨S500000x1, .f32⟩
  | .hbm, ⟨62, _⟩ => ⟨S500000x128, .f32⟩
  | .hbm, ⟨63, _⟩ => ⟨S500000x128, .f32⟩
  | .hbm, ⟨64, _⟩ => ⟨S_, .f32⟩
  | .hbm, ⟨65, _⟩ => ⟨S50000x128, .f32⟩
  | .hbm, ⟨66, _⟩ => ⟨S500000x1, .i32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x64, .f32⟩
  | .hbm, ⟨73, _⟩ => ⟨S_, .i32⟩
  | .hbm, ⟨74, _⟩ => ⟨S500000, .i32⟩
  | .hbm, ⟨75, _⟩ => ⟨S500000, .i1⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000, .i32⟩
  | .hbm, ⟨80, _⟩ => ⟨S500000x1, .i32⟩
  | .hbm, ⟨81, _⟩ => ⟨S500000x64, .f32⟩
  | .hbm, ⟨82, _⟩ => ⟨S500000x1, .f32⟩
  | .hbm, ⟨83, _⟩ => ⟨S500000x64, .f32⟩
  | .hbm, ⟨84, _⟩ => ⟨S500000x64, .f32⟩
  | .hbm, ⟨85, _⟩ => ⟨S_, .f32⟩
  | .hbm, ⟨86, _⟩ => ⟨S50000x64, .f32⟩
  | .hbm, ⟨87, _⟩ => ⟨S500000x1, .i32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S5000x256_S256x128_S5000x128_1_0_0_1_n_n_wf : DotDims.WF S5000x256 S256x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x64_S5000x64_1_0_0_1_n_n_wf : DotDims.WF S5000x128 S128x64 S5000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S50000x128 : Shape := ⟨2, ![50000, 128]⟩
abbrev S50000 : Shape := ⟨1, ![50000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S50000x64 : Shape := ⟨2, ![50000, 64]⟩
abbrev S550000x64 : Shape := ⟨2, ![550000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S50000x256, .f32⟩
  | 1 => ⟨S2x500000, .i32⟩
  | 2 => ⟨S256x128, .f32⟩
  | 3 => ⟨S128, .f32⟩
  | 4 => ⟨S128x64, .f32⟩
  | 5 => ⟨S64, .f32⟩
  | 6 => ⟨S1x500000, .i32⟩
  | 7 => ⟨S500000, .i32⟩
  | 8 => ⟨S1x500000, .i32⟩
  | 9 => ⟨S500000, .i32⟩
  | 10 => ⟨S50000x128, .f32⟩
  | 11 => ⟨S50000, .i32⟩
  | 12 => ⟨S550000, .i32⟩
  | 13 => ⟨S550000, .i32⟩
  | 14 => ⟨S_, .f32⟩
  | 15 => ⟨S550000, .f32⟩
  | 16 => ⟨S_, .f32⟩
  | 17 => ⟨S50000, .f32⟩
  | 18 => ⟨S550000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S550000, .i32⟩
  | 33 => ⟨S550000, .i1⟩
  | 34 => ⟨S_, .i32⟩
  | 35 => ⟨S550000, .i32⟩
  | 36 => ⟨S550000, .i32⟩
  | 37 => ⟨S550000, .i32⟩
  | 38 => ⟨S550000x1, .i32⟩
  | 39 => ⟨S550000, .f32⟩
  | 40 => ⟨S_, .i32⟩
  | 41 => ⟨S550000, .i32⟩
  | 42 => ⟨S550000, .i1⟩
  | 43 => ⟨S_, .i32⟩
  | 44 => ⟨S550000, .i32⟩
  | 45 => ⟨S550000, .i32⟩
  | 46 => ⟨S550000, .i32⟩
  | 47 => ⟨S550000x1, .i32⟩
  | 48 => ⟨S550000, .f32⟩
  | 49 => ⟨S550000, .f32⟩
  | 50 => ⟨S_, .i32⟩
  | 51 => ⟨S550000, .i32⟩
  | 52 => ⟨S550000, .i1⟩
  | 53 => ⟨S_, .i32⟩
  | 54 => ⟨S550000, .i32⟩
  | 55 => ⟨S550000, .i32⟩
  | 56 => ⟨S550000, .i32⟩
  | 57 => ⟨S550000x1, .i32⟩
  | 58 => ⟨S550000x128, .f32⟩
  | 59 => ⟨S550000x1, .f32⟩
  | 60 => ⟨S550000x128, .f32⟩
  | 61 => ⟨S550000x128, .f32⟩
  | 62 => ⟨S_, .f32⟩
  | 63 => ⟨S50000x128, .f32⟩
  | 64 => ⟨S550000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x64, .f32⟩
  | 73 => ⟨S50000, .i32⟩
  | 74 => ⟨S550000, .i32⟩
  | 75 => ⟨S550000, .i32⟩
  | 76 => ⟨S_, .f32⟩
  | 77 => ⟨S550000, .f32⟩
  | 78 => ⟨S_, .f32⟩
  | 79 => ⟨S50000, .f32⟩
  | 80 => ⟨S550000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S50000, .f32⟩
  | 87 => ⟨S50000, .f32⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S550000, .i32⟩
  | 95 => ⟨S550000, .i1⟩
  | 96 => ⟨S_, .i32⟩
  | 97 => ⟨S550000, .i32⟩
  | 98 => ⟨S550000, .i32⟩
  | 99 => ⟨S550000, .i32⟩
  | 100 => ⟨S550000x1, .i32⟩
  | 101 => ⟨S550000, .f32⟩
  | 102 => ⟨S_, .i32⟩
  | 103 => ⟨S550000, .i32⟩
  | 104 => ⟨S550000, .i1⟩
  | 105 => ⟨S_, .i32⟩
  | 106 => ⟨S550000, .i32⟩
  | 107 => ⟨S550000, .i32⟩
  | 108 => ⟨S550000, .i32⟩
  | 109 => ⟨S550000x1, .i32⟩
  | 110 => ⟨S550000, .f32⟩
  | 111 => ⟨S550000, .f32⟩
  | 112 => ⟨S_, .i32⟩
  | 113 => ⟨S550000, .i32⟩
  | 114 => ⟨S550000, .i1⟩
  | 115 => ⟨S_, .i32⟩
  | 116 => ⟨S550000, .i32⟩
  | 117 => ⟨S550000, .i32⟩
  | 118 => ⟨S550000, .i32⟩
  | 119 => ⟨S550000x1, .i32⟩
  | 120 => ⟨S550000x64, .f32⟩
  | 121 => ⟨S550000x1, .f32⟩
  | 122 => ⟨S550000x64, .f32⟩
  | 123 => ⟨S550000x64, .f32⟩
  | 124 => ⟨S_, .f32⟩
  | 125 => ⟨S50000x64, .f32⟩
  | 126 => ⟨S550000x1, .i32⟩
  | 127 => ⟨S50000x64, .f32⟩
  | _ => ⟨S50000x256, .f32⟩

abbrev hbmTy0_1 (i : Nat) : BufTy := match i % 128 with
  | 0 => ⟨S1x64, .f32⟩
  | 1 => ⟨S50000x64, .f32⟩
  | 2 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S550000x1_S550000x64_0_1 : S550000x1.BroadcastsInDim S550000x64 (![0, 1] : Fin 2 → Fin S550000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x64_S50000x64_1_0_0_1_n_n_wf : DotDims.WF S50000x128 S128x64 S50000x64 [1] [0] [0] [1] [] []
  gather_S50000x64_S550000x1_S550000x64_1_0_n_n_0_1_164_wf : GatherDims.WF S50000x64 S550000x1 S550000x64 [1] [0] [] [0] [] 1 ![1, 64]
  scatter_S50000x64_S550000x1_S550000x64_1_0_0_1_wf : ScatterDims.WF S50000x64 S550000x1 S550000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S550000x1_S550000x64_1_0_n_n_0_1_164 : GatherDims S50000x64 S550000x1 S550000x64 where
  offsetDims := [1]
  collapsedSliceDims := [0]
  operandBatchingDims := []
  startIndicesBatchingDims := []
  startIndexMap := [0]
  indexVectorDim := 1
  sliceSizes := ![1, 64]
  wf := gather_S50000x64_S550000x1_S550000x64_1_0_n_n_0_1_164_wf
def scatter_S50000x64_S550000x1_S550000x64_1_0_0_1 : ScatterDims S50000x64 S550000x1 S550000x64 where
  updateWindowDims := [1]
  insertedWindowDims := [0]
  scatterDimsToOperandDims := [0]
  indexVectorDim := 1
  wf := scatter_S50000x64_S550000x1_S550000x64_1_0_0_1_wf

class Facts : Prop extends Facts₀ where

variable [Facts]
-- ==== Proof.KStages.lean ====
/-
  The kernel's host program, stage by stage, as functions of the argument arrays.

  A two-layer graph convolution on N = 50000 nodes and E = 500000 directed edges (source row and target row of
  the edge array). With dis = (deg)^(-1/2) where deg counts the edges into a node plus one for its own loop,
  a layer sends a table P : [N, C] to
      agg P (i, c) = ∑ over edges e into i of P (src e, c) * (dis (src e) * dis (dst e))  +  (dis i * dis i) * P (i, c),
  the second summand being the node's own loop, added densely. The first table is P1 = X · W1, the second
  P2 = relu (agg P1 + b1) · W2, and the result is agg P2 + b2. The two matrix products are the two kernel
  regions; everything else is the host operations named here, in program order.
-/
import proofs.«103109_j73512660238643_2_alg».proof.KernelIdeal
import proofs.«103109_j73512660238643_2_alg».proof.Proof.Gen.KernelIdeal
import Idealize.ShloMosaic.Lib.ValueIdx

noncomputable section

open scoped BigOperators

namespace Cert.KernelIdeal.Stage

open Cert.KernelIdeal Cert.KernelIdeal.Facts₀ Cert.KernelIdeal.Facts Idealize.ShloMosaic Idealize.ShloMosaic.ValueIdx

/-- The float zero word both programs use as the start of every sum and as the floor of the rectifier. -/
abbrev zf : EReal := Ideal.ofBits .f32 0x00000000#32

/-- Row 0 of the edge array: each edge's source node. -/
def src (x1 : (⟨S2x500000, .i32⟩ : BufTy).Contents (Elt Ideal)) : (⟨S500000, .i32⟩ : BufTy).Contents (Elt Ideal) :=
  shapeCast _ (extractStridedSlice S1x500000 ![0, 0] x1 slices_S2x500000_S1x500000_0_0) shapeCasts_S1x500000_S500000

/-- Row 1 of the edge array: each edge's target node. -/
def dst (x1 : (⟨S2x500000, .i32⟩ : BufTy).Contents (Elt Ideal)) : (⟨S500000, .i32⟩ : BufTy).Contents (Elt Ideal) :=
  shapeCast _ (extractStridedSlice S1x500000 ![1, 0] x1 slices_S2x500000_S1x500000_1_0) shapeCasts_S1x500000_S500000

/-- A negative node number counts from the end: v + N when v < 0, else v. -/
def wrap (v : (⟨S500000, .i32⟩ : BufTy).Contents (Elt Ideal)) : (⟨S500000, .i32⟩ : BufTy).Contents (Elt Ideal) :=
  select (cmpi .slt v (broadcastInDim S500000 ![] bcast_S_S500000 (constantI S_ 32 0#32)))
    (addi v (broadcastInDim S500000 ![] bcast_S_S500000 (constantI S_ 32 50000#32))) v

/-- One node number per edge stood up as an index column. -/
def col (v : (⟨S500000, .i32⟩ : BufTy).Contents (Elt Ideal)) : (⟨S500000x1, .i32⟩ : BufTy).Contents (Elt Ideal) :=
  broadcastInDim S500000x1 ![0] bcast_S500000_S500000x1_0 v

/-- The degree: one per edge into the node, plus one for the node's own loop. -/
def deg (x1 : (⟨S2x500000, .i32⟩ : BufTy).Contents (Elt Ideal)) : (⟨S50000, .f32⟩ : BufTy).Contents (Elt Ideal) :=
  addf (Host.scatterAdd (F := Ideal) scatter_S50000_S500000x1_S500000_n_0_0_1
      (broadcastInDim S50000 ![] bcast_S_S50000 (constant (F := Ideal) S_ .f32 0x00000000#32))
      (col (dst x1))
      (broadcastInDim S500000 ![] bcast_S_S500000 (constant (F := Ideal) S_ .f32 0x3F800000#32)))
    (broadcastInDim S50000 ![] bcast_S_S50000 (constant (F := Ideal) S_ .f32 0x3F800000#32))

/-- deg ↦ deg^(-1/2) where deg > 0 (the degree floored at 1e-12 first), zero elsewhere. -/
def disOf (d : (⟨S50000, .f32⟩ : BufTy).Contents (Elt Ideal)) : (⟨S50000, .f32⟩ : BufTy).Contents (Elt Ideal) :=
  select (cmpf .ogt d (broadcastInDim S50000 ![] bcast_S_S50000 (constant (F := Ideal) S_ .f32 0x00000000#32)))
    (Host.rsqrt (F := Ideal) (maximumf d (broadcastInDim S50000 ![] bcast_S_S50000 (constant (F := Ideal) S_ .f32 0x2B8CBCCC#32))))
    (broadcastInDim S50000 ![] bcast_S_S50000 (constant (F := Ideal) S_ .f32 0x00000000#32))

def dis (x1 : (⟨S2x500000, .i32⟩ : BufTy).Contents (Elt Ideal)) : (⟨S50000, .f32⟩ : BufTy).Contents (Elt Ideal) :=
  disOf (deg x1)

/-- The weight of an edge: dis at its source times dis at its target. -/
def norm (x1 : (⟨S2x500000, .i32⟩ : BufTy).Contents (Elt Ideal)) : (⟨S500000, .f32⟩ : BufTy).Contents (Elt Ideal) :=
  mulf (F := Ideal) (φ := .f32) (Host.gather gather_S50000_S500000x1_S500000_n_0_n_n_0_1_1 (dis x1) (col (wrap (src x1))))
    (Host.gather gather_S50000_S500000x1_S500000_n_0_n_n_0_1_1 (dis x1) (col (wrap (dst x1))))

/-- The weight of a node's own loop, dis², as a column. -/
def selfCol (x1 : (⟨S2x500000, .i32⟩ : BufTy).Contents (Elt Ideal)) : (⟨S50000x1, .f32⟩ : BufTy).Contents (Elt Ideal) :=
  broadcastInDim S50000x1 ![0] bcast_S50000_S50000x1_0 (mulf (F := Ideal) (φ := .f32) (dis x1) (dis x1))

/-- The edge weights as a column. -/
def normCol (x1 : (⟨S2x500000, .i32⟩ : BufTy).Contents (Elt Ideal)) : (⟨S500000x1, .f32⟩ : BufTy).Contents (Elt Ideal) :=
  broadcastInDim S500000x1 ![0] bcast_S500000_S500000x1_0 (norm x1)

/-- One layer's aggregation of a 128-column table. -/
def agg128 (x1 : (⟨S2x500000, .i32⟩ : BufTy).Contents (Elt Ideal)) (P : (⟨S50000x128, .f32⟩ : BufTy).Contents (Elt Ideal)) :
    (⟨S50000x128, .f32⟩ : BufTy).Contents (Elt Ideal) :=
  addf (Host.scatterAdd (F := Ideal) scatter_S50000x128_S500000x1_S500000x128_1_0_0_1
      (broadcastInDim S50000x128 ![] bcast_S_S50000x128 (constant (F := Ideal) S_ .f32 0x00000000#32))
      (col (dst x1))
      (mulf (Host.gather gather_S50000x128_S500000x1_S500000x128_1_0_n_n_0_1_1128 P (col (wrap (src x1))))
        (broadcastInDim S500000x128 ![0, 1] bcast_S500000x1_S500000x128_0_1 (normCol x1))))
    (mulf (broadcastInDim S50000x128 ![0, 1] bcast_S50000x1_S50000x128_0_1 (selfCol x1)) P)

/-- One layer's aggregation of a 64-column table. -/
def agg64 (x1 : (⟨S2x500000, .i32⟩ : BufTy).Contents (Elt Ideal)) (P : (⟨S50000x64, .f32⟩ : BufTy).Contents (Elt Ideal)) :
    (⟨S50000x64, .f32⟩ : BufTy).Contents (Elt Ideal) :=
  addf (Host.scatterAdd (F := Ideal) scatter_S50000x64_S500000x1_S500000x64_1_0_0_1
      (broadcastInDim S50000x64 ![] bcast_S_S50000x64 (constant (F := Ideal) S_ .f32 0x00000000#32))
      (col (dst x1))
      (mulf (Host.gather gather_S50000x64_S500000x1_S500000x64_1_0_n_n_0_1_164 P (col (wrap (src x1))))
        (broadcastInDim S500000x64 ![0, 1] bcast_S500000x1_S500000x64_0_1 (normCol x1))))
    (mulf (broadcastInDim S50000x64 ![0, 1] bcast_S50000x1_S50000x64_0_1 (selfCol x1)) P)

/-- The first bias as a row (what the second region's bias window holds). -/
def b1row (x3 : (⟨S128, .f32⟩ : BufTy).Contents (Elt Ideal)) : (⟨S1x128, .f32⟩ : BufTy).Contents (Elt Ideal) :=
  shapeCast _ x3 shapeCasts_S128_S1x128

/-- The first region's whole result: X · W1. -/
def P1 (x0 : (⟨S50000x256, .f32⟩ : BufTy).Contents (Elt Ideal)) (x2 : (⟨S256x128, .f32⟩ : BufTy).Contents (Elt Ideal)) :
    (⟨S50000x128, .f32⟩ : BufTy).Contents (Elt Ideal) :=
  fun j => ∑ k : Fin 256, x0 (ix2 (j 0) k) * x2 (ix2 k (j 1))

/-- The second region's whole result: relu (A + b1) · W2, for the table A it is handed. -/
def P2 (A : (⟨S50000x128, .f32⟩ : BufTy).Contents (Elt Ideal)) (x3 : (⟨S128, .f32⟩ : BufTy).Contents (Elt Ideal))
    (x4 : (⟨S128x64, .f32⟩ : BufTy).Contents (Elt Ideal)) : (⟨S50000x64, .f32⟩ : BufTy).Contents (Elt Ideal) :=
  fun j => ∑ k : Fin 128, max (A (ix2 (j 0) k) + x3 (ix1 k)) zf * x4 (ix2 k (j 1))

/-- The last host operations: the second aggregation plus the second bias along every row. -/
def out (x1 : (⟨S2x500000, .i32⟩ : BufTy).Contents (Elt Ideal)) (x5 : (⟨S64, .f32⟩ : BufTy).Contents (Elt Ideal))
    (Q : (⟨S50000x64, .f32⟩ : BufTy).Contents (Elt Ideal)) : (⟨S50000x64, .f32⟩ : BufTy).Contents (Elt Ideal) :=
  addf (F := Ideal) (φ := .f32) (agg64 x1 Q)
    (broadcastInDim S50000x64 ![0, 1] bcast_S1x64_S50000x64_0_1 (broadcastInDim S1x64 ![1] bcast_S64_S1x64_1 x5))

/-- The kernel program's result as one function of its six arguments. -/
def result (x0 : (⟨S50000x256, .f32⟩ : BufTy).Contents (Elt Ideal)) (x1 : (⟨S2x500000, .i32⟩ : BufTy).Contents (Elt Ideal))
    (x2 : (⟨S256x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    (⟨S50000x64, .f32⟩ : BufTy).Contents (Elt Ideal) :=
  out x1 x5 (P2 (agg128 x1 (P1 x0 x2)) x3 x4)

end Cert.KernelIdeal.Stage

end
-- ==== Proof.LibRowScatter.lean ====
/-
  Rows of a matrix moved by an index column, read at an index.

  A graph layer gathers the rows of a node table `[N, C]` at one index per edge (`[E, 1]`, the edge's source) and
  adds the gathered rows `[E, C]` into a node table at another index per edge (the edge's target). This file reads
  both operations at one entry, for any extents `N`, `E`, `C`:

  * `gather_rows_apply`: entry `(e, c)` of the gathered table is the operand's entry `(r, c)`, where `r` is the
    edge's index read as a signed integer and clamped into `[0, N - 1]`; `gather_vec_apply` is the same for a
    vector `[N]` gathered into `[E]`;
  * `scatterAdd_rows_apply`: over the extended reals, entry `(n, c)` of the accumulated table is the operand's
    entry plus the sum, over the edges whose index read as a signed integer IS `n`, of the update's entry `(e, c)`.
    An edge whose index is negative or at least `N` contributes to no row.
    (`host_scatterAdd_rows_apply` is the same statement for the host operation `Host.scatterAdd` at the ideal instance.)
  * `clamp_of_inRange` / `wrapNeg_of_nonneg`: an index already in `[0, N)` is left alone both by the clamp and by
    the normalisation of negative indices `select (v < 0) (v + N) v` that precedes a gather.
-/
import Idealize.ShloMosaic.Lib.ValueIdx
import Idealize.ShloMosaic.Lib.Affine

noncomputable section

open scoped BigOperators

namespace Idealize.ShloMosaic.RowScatter

open Idealize.ShloMosaic Idealize.ShloMosaic.ValueIdx

/-! ## Two rank-2 indices are equal when their coordinates are -/

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

/-! ## Gathering rows -/

/-- The dimension numbers of `x[idx]` for a table `x : [N, C]` and one row index per edge, `idx : [E, 1]`:
    the row axis is collapsed and indexed, the column axis is the slice. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered rows: the table's row at edge `e`'s index, read signed and clamped into
    `[0, N - 1]`, at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e (0 : Fin 1))).toInt.toNat (N - 1), by omega⟩ c) := by
  unfold Host.gather
  refine congrArg x (funext fun a => Fin.ext ?_)
  show (rowGather N E C wf).start (ix2 e c) idx a + (rowGather N E C wf).batchCoord (ix2 e c) a
      + (rowGather N E C wf).offCoord (ix2 e c) a = _
  rw [GatherDims.batchCoord_eq_zero _ _ _ List.not_mem_nil]
  revert a
  refine Fin.forall_fin_two.mpr ⟨?_, ?_⟩
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (rowGather N E C wf).startIndexMap from
      fun h => absurd (List.mem_singleton.mp h) (show (1 : Fin 2) ≠ 0 by decide))]
    simp only [Nat.zero_add, Nat.add_zero]
    unfold GatherDims.offCoord
    rw [dif_pos (show (1 : Fin 2) ∈ (rowGather N E C wf).sKept from
      (GatherDims.mem_sKept _ _).mpr ⟨fun h => absurd (List.mem_singleton.mp h) (show (1 : Fin 2) ≠ 0 by decide), List.not_mem_nil⟩)]
    rfl

/-- The dimension numbers of `v[idx]` for a vector `v : [N]` and one index per edge, `idx : [E, 1]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector: the vector at edge `e`'s index, read signed and clamped into `[0, N - 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  refine congrArg x (funext fun a => Fin.ext ?_)
  obtain rfl : a = 0 := Subsingleton.elim _ _
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows into a table -/

/-- The dimension numbers of `x.at[idx].add(u)` for a table `x : [N, C]`, one row index per edge `idx : [E, 1]`
    and one row of updates per edge `u : [E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- Where update entry `(e, c)` lands: row `t`, column `c`, when edge `e`'s index read signed is a row `t` of the
    table; nowhere when it is negative or at least `N`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = if h : 0 ≤ (idx (ix2 e (0 : Fin 1))).toInt ∧ (idx (ix2 e (0 : Fin 1))).toInt < N then
          some (ix2 ⟨(idx (ix2 e (0 : Fin 1))).toInt.toNat, by omega⟩ c)
        else none := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => absurd (List.mem_singleton.mp h) (show (1 : Fin 2) ≠ 0 by decide))]
  have hw0 : (rowScatter N E C wf).window (ix2 e c) 0 = 0 := by
    unfold ScatterDims.window
    rw [dif_neg (show ¬ (0 : Fin 2) ∈ (rowScatter N E C wf).sKept from
      fun h => (mem_sKept _ _).mp h (List.mem_singleton.mpr rfl))]
  have hw1 : (rowScatter N E C wf).window (ix2 e c) 1 = c.val := by
    unfold ScatterDims.window
    rw [dif_pos (show (1 : Fin 2) ∈ (rowScatter N E C wf).sKept from
      (mem_sKept _ _).mpr fun h => absurd (List.mem_singleton.mp h) (show (1 : Fin 2) ≠ 0 by decide))]
    rfl
  unfold ScatterDims.resultIdx?
  by_cases h : 0 ≤ (idx (ix2 e (0 : Fin 1))).toInt ∧ (idx (ix2 e (0 : Fin 1))).toInt < N
  · have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : ℤ) := by
      refine Fin.forall_fin_two.mpr ⟨?_, ?_⟩
      · rw [hs0, hw0]
        refine ⟨by omega, ?_⟩
        show (idx (ix2 e (0 : Fin 1))).toInt + ((0 : ℕ) : ℤ) < (N : ℤ)
        omega
      · rw [hs1, hw1]
        refine ⟨by omega, ?_⟩
        show (0 : ℤ) + (c.val : ℤ) < (C : ℤ)
        have := c.isLt; omega
    rw [dif_pos hall, dif_pos h]
    refine congrArg some (funext fun a => Fin.ext ?_)
    match a with
    | ⟨0, _⟩ =>
      show ((rowScatter N E C wf).start (ix2 e c) idx 0 + (rowScatter N E C wf).window (ix2 e c) 0).toNat = _
      rw [hs0, hw0]; simp
    | ⟨1, _⟩ =>
      show ((rowScatter N E C wf).start (ix2 e c) idx 1 + (rowScatter N E C wf).window (ix2 e c) 1).toNat = _
      rw [hs1, hw1]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `(n, c)` of a table after rows are added into it, over the extended reals: the entry before, plus the
    sum over the edges whose index read signed is `n` of the update's entry `(e, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : ℤ)), upd (ix2 e c) := by
  unfold Ideal.hostScatterAdd
  refine congrArg (x (ix2 n c) + ·) ?_
  rw [Finset.sum_filter, Finset.sum_filter, sum_idx2]
  refine Finset.sum_congr rfl fun e _ => ?_
  have hiff : ∀ c' : Fin C, ((rowScatter N E C wf).resultIdx? (ix2 e c') idx = some (ix2 n c))
      ↔ ((idx (ix2 e (0 : Fin 1))).toInt = (n.val : ℤ) ∧ c' = c) := by
    intro c'
    rw [rowScatter_resultIdx?]
    by_cases h : 0 ≤ (idx (ix2 e (0 : Fin 1))).toInt ∧ (idx (ix2 e (0 : Fin 1))).toInt < N
    · rw [dif_pos h, Option.some_inj, ix2_inj]
      constructor
      · rintro ⟨h1, h2⟩
        refine ⟨?_, h2⟩
        have := congrArg Fin.val h1
        simp only at this
        omega
      · rintro ⟨h1, h2⟩
        refine ⟨Fin.ext ?_, h2⟩
        show (idx (ix2 e (0 : Fin 1))).toInt.toNat = n.val
        omega
    · rw [dif_neg h]
      constructor
      · intro hh; exact absurd hh (by simp)
      · rintro ⟨h1, _⟩
        exfalso; apply h
        have := n.isLt
        omega
  by_cases ht : (idx (ix2 e (0 : Fin 1))).toInt = (n.val : ℤ)
  · rw [if_pos ht]
    rw [Finset.sum_eq_single c]
    · rw [if_pos ((hiff c).mpr ⟨ht, rfl⟩)]
    · intro c' _ hne
      rw [if_neg (fun hh => hne ((hiff c').mp hh).2)]
    · intro hc; exact absurd (Finset.mem_univ c) hc
  · rw [if_neg ht]
    refine Finset.sum_eq_zero fun c' _ => ?_
    rw [if_neg (fun hh => ht ((hiff c').mp hh).1)]

/-- The same for the host's accumulating scatter at the ideal instance, which is that sum. -/
theorem host_scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w)
    (upd : FVec Ideal ⟨2, ![E, C]⟩ .f32) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)), upd (ix2 e c) :=
  scatterAdd_rows_apply wf x idx upd n c

/-! ## An index already in range -/

/-- The clamp into `[0, N - 1]` leaves an index in `[0, N)` alone. -/
theorem clamp_of_inRange {w N : Nat} (v : BitVec w) (h0 : 0 ≤ v.toInt) (hN : v.toInt < N) :
    min v.toInt.toNat (N - 1) = v.toInt.toNat := by
  omega

/-- The normalisation of a possibly negative index, `select (v < 0) (v + N) v` one element at a time, leaves a
    non-negative index alone. -/
theorem wrapNeg_of_nonneg {w : Nat} (v z nn : BitVec w) (hz : z.toInt = 0) (h0 : 0 ≤ v.toInt) :
    Scalar.select (IntOp.cmpi .slt v z) (IntOp.addi v nn) v = v := by
  unfold Scalar.select
  rw [if_neg]
  intro h
  have := IntOp.cmpi_slt.mp h
  omega

end Idealize.ShloMosaic.RowScatter

end
-- ==== Proof.LibVecScatter.lean ====
/-
  Values added into a vector at one index per edge, read at an entry.

  `x.at[idx].add(u)` for a vector `x : [N]`, one index per edge `idx : [E, 1]` and one value per edge `u : [E]`:
  over the extended reals entry `n` of the result is the operand's entry plus the sum, over the edges whose index
  read as a signed integer IS `n`, of the edge's value. An edge whose index is negative or at least `N`
  contributes to no entry. (Counting the edges into each node is the case of a zero operand and all values one.)
-/
import Idealize.ShloMosaic.Lib.ValueIdx
import Idealize.ShloMosaic.Lib.Affine

noncomputable section

open scoped BigOperators

namespace Idealize.ShloMosaic.VecScatter

open Idealize.ShloMosaic Idealize.ShloMosaic.ValueIdx

/-- The dimension numbers of `x.at[idx].add(u)` for a vector `x : [N]`, one index per edge and one value per edge. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- A sum over the indices of a vector of length `n`, coordinate by coordinate. -/
theorem sum_vecIdx {M : Type*} [AddCommMonoid M] {n : Nat} (f : (⟨1, ![n]⟩ : Shape).Idx → M) :
    ∑ j, f j = ∑ i : Fin n, f (ix1 i) :=
  Fintype.sum_equiv
    { toFun := fun j => j 0, invFun := fun i => ix1 i, left_inv := fun j => (eq_ix1 j).symm, right_inv := fun _ => rfl }
    f (fun i => f (ix1 i)) fun j => congrArg f (eq_ix1 j)

/-- Where edge `e`'s value lands: entry `t` when the edge's index read signed is an entry `t` of the vector;
    nowhere when it is negative or at least `N`. -/
theorem vecScatter_resultIdx? {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx
      = if h : 0 ≤ (idx (ix2 e (0 : Fin 1))).toInt ∧ (idx (ix2 e (0 : Fin 1))).toInt < N then
          some (ix1 ⟨(idx (ix2 e (0 : Fin 1))).toInt.toNat, by omega⟩)
        else none := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from
      fun h => (mem_sKept _ _).mp h (List.mem_singleton.mpr rfl))]
  unfold ScatterDims.resultIdx?
  by_cases h : 0 ≤ (idx (ix2 e (0 : Fin 1))).toInt ∧ (idx (ix2 e (0 : Fin 1))).toInt < N
  · have hall : ∀ a : Fin 1, 0 ≤ (vecScatter N E wf).start (ix1 e) idx a + (vecScatter N E wf).window (ix1 e) a
        ∧ (vecScatter N E wf).start (ix1 e) idx a + (vecScatter N E wf).window (ix1 e) a
          < ((⟨1, ![N]⟩ : Shape).size a : ℤ) := by
      intro a
      match a with
      | ⟨0, _⟩ =>
        show 0 ≤ (vecScatter N E wf).start (ix1 e) idx 0 + (vecScatter N E wf).window (ix1 e) 0
          ∧ (vecScatter N E wf).start (ix1 e) idx 0 + (vecScatter N E wf).window (ix1 e) 0 < ((⟨1, ![N]⟩ : Shape).size 0 : ℤ)
        rw [hs0, hw0]
        refine ⟨by omega, ?_⟩
        show (idx (ix2 e (0 : Fin 1))).toInt + ((0 : ℕ) : ℤ) < (N : ℤ)
        omega
    rw [dif_pos hall, dif_pos h]
    refine congrArg some (funext fun a => Fin.ext ?_)
    match a with
    | ⟨0, _⟩ =>
      show ((vecScatter N E wf).start (ix1 e) idx 0 + (vecScatter N E wf).window (ix1 e) 0).toNat = _
      rw [hs0, hw0]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `n` of a vector after values are added into it, over the extended reals: the entry before, plus the sum
    over the edges whose index read signed is `n` of the edge's value. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n)
        + ∑ e ∈ Finset.univ.filter (fun e : Fin E => (idx (ix2 e (0 : Fin 1))).toInt = (n.val : ℤ)), upd (ix1 e) := by
  unfold Ideal.hostScatterAdd
  refine congrArg (x (ix1 n) + ·) ?_
  rw [Finset.sum_filter, Finset.sum_filter, sum_vecIdx]
  refine Finset.sum_congr rfl fun e _ => ?_
  have hiff : ((vecScatter N E wf).resultIdx? (ix1 e) idx = some (ix1 n))
      ↔ (idx (ix2 e (0 : Fin 1))).toInt = (n.val : ℤ) := by
    rw [vecScatter_resultIdx?]
    by_cases h : 0 ≤ (idx (ix2 e (0 : Fin 1))).toInt ∧ (idx (ix2 e (0 : Fin 1))).toInt < N
    · rw [dif_pos h, Option.some_inj]
      constructor
      · intro h1
        have h2 : (idx (ix2 e (0 : Fin 1))).toInt.toNat = n.val := congrArg Fin.val (congrFun h1 0)
        omega
      · intro h1
        refine congrArg ix1 (Fin.ext ?_)
        show (idx (ix2 e (0 : Fin 1))).toInt.toNat = n.val
        omega
    · rw [dif_neg h]
      constructor
      · intro hh; exact absurd hh (by simp)
      · intro h1
        exfalso; apply h
        have := n.isLt
        omega
  by_cases ht : (idx (ix2 e (0 : Fin 1))).toInt = (n.val : ℤ)
  · rw [if_pos ht, if_pos (hiff.mpr ht)]
  · rw [if_neg ht, if_neg (fun hh => ht (hiff.mp hh))]

/-- The same for the host's accumulating scatter at the ideal instance, which is that sum. -/
theorem host_scatterAdd_vec_apply {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w)
    (upd : FVec Ideal ⟨1, ![E]⟩ .f32) (n : Fin N) :
    Host.scatterAdd (vecScatter N E wf) x idx upd (ix1 n)
      = x (ix1 n)
        + ∑ e ∈ Finset.univ.filter (fun e : Fin E => (idx (ix2 e (0 : Fin 1))).toInt = (n.val : ℤ)), upd (ix1 e) :=
  scatterAdd_vec_apply wf x idx upd n

end Idealize.ShloMosaic.VecScatter

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.GraphRead.lean ====
/-
  The host operations of a graph-convolution layer, read at an entry, for any number of nodes N, of edges E and
  of columns C.

  Node numbers are 32-bit words, one source and one target per edge. Before a gather a number that is negative
  counts from the end (v + N), and the gather clamps what it is handed into [0, N - 1]: `rowOf` is the row of an
  N-row table a word names in that way. A scatter-add reads the target word as it is, signed, and drops an edge
  whose target is not a row. With those two readings:
    * the edge weights   dis[src] * dis[dst]                         are  dis (rowOf (s e)) * dis (rowOf (d e));
    * the edge count     0.at[dst].add(1)                            is   z + ∑ over edges e with target i of one;
    * the weighted sum   0.at[dst].add(x[src] * w[:, None])  at (i, c)  is   z + ∑ over edges e with target i of
                                                                          x (rowOf (s e), c) * w e;
    * an edge list joined from E real edges and N loops reads the real edge at a position below E and node j's
      own number at position E + j.
-/
import Idealize.ShloMosaic.Lib.ValueIdx
import Idealize.ShloMosaic.Lib.Pipeline.Value
import Idealize.ShloMosaic.PureOps.Ideal
import proofs.«103109_j73512660238643_2_alg».proof.Proof.LibRowScatter
import proofs.«103109_j73512660238643_2_alg».proof.Proof.LibVecScatter
import proofs.«103109_j73512660238643_2_alg».proof.Proof.LibKeepdims

noncomputable section

open scoped BigOperators

namespace Idealize.ShloMosaic.GraphRead

open Idealize.ShloMosaic Idealize.ShloMosaic.ValueIdx Idealize.ShloMosaic.RowScatter Idealize.ShloMosaic.VecScatter

/-- The shape of a scalar. -/
abbrev S0 : Shape := ⟨0, ![]⟩

/-- A scalar spread over any shape reads the scalar everywhere. -/
theorem splat_apply {α : Type} {t : Shape} (h : S0.BroadcastsInDim t (![] : Fin 0 → Fin t.rank)) (c : S0.Idx → α) (j : t.Idx) :
    broadcastInDim t ![] h c j = c ix0 :=
  broadcastInDim_apply _ h c j ix0 (fun a => a.elim0)

/-- A node number that may count from the end: `v + N` when `v < 0`, else `v` (`nw` is the word of `N`). -/
def wrapW (nw v : BitVec 32) : BitVec 32 := Scalar.select (IntOp.cmpi .slt v 0#32) (IntOp.addi v nw) v

/-- The row of an `N`-row table that a gather reads for the node number `v`: wrapped, then clamped into `[0, N - 1]`. -/
def rowOf (N : Nat) (hN : 0 < N) (nw v : BitVec 32) : Fin N := ⟨min (wrapW nw v).toInt.toNat (N - 1), by omega⟩

section
variable {N E C : Nat}

/-- The wrap of every edge's node number. -/
def wrapV (hb : S0.BroadcastsInDim ⟨1, ![E]⟩ (![] : Fin 0 → Fin (⟨1, ![E]⟩ : Shape).rank)) (nw : BitVec 32)
    (v : IVec ⟨1, ![E]⟩ 32) : IVec ⟨1, ![E]⟩ 32 :=
  select (cmpi .slt v (broadcastInDim ⟨1, ![E]⟩ ![] hb (constantI S0 32 0#32)))
    (addi v (broadcastInDim ⟨1, ![E]⟩ ![] hb (constantI S0 32 nw))) v

theorem wrapV_apply (hb : S0.BroadcastsInDim ⟨1, ![E]⟩ (![] : Fin 0 → Fin (⟨1, ![E]⟩ : Shape).rank)) (nw : BitVec 32)
    (v : IVec ⟨1, ![E]⟩ 32) (e : Fin E) : wrapV hb nw v (ix1 e) = wrapW nw (v (ix1 e)) := by
  show Scalar.select (IntOp.cmpi .slt (v (ix1 e)) (broadcastInDim ⟨1, ![E]⟩ ![] hb (constantI S0 32 0#32) (ix1 e)))
      (IntOp.addi (v (ix1 e)) (broadcastInDim ⟨1, ![E]⟩ ![] hb (constantI S0 32 nw) (ix1 e))) (v (ix1 e)) = _
  rw [splat_apply, splat_apply]
  rfl

/-- One value per edge stood up as a column. -/
abbrev colV {α : Type} (hc : (⟨1, ![E]⟩ : Shape).BroadcastsInDim ⟨2, ![E, 1]⟩ (![0] : Fin 1 → Fin (⟨2, ![E, 1]⟩ : Shape).rank))
    (v : (⟨1, ![E]⟩ : Shape).Idx → α) : (⟨2, ![E, 1]⟩ : Shape).Idx → α :=
  broadcastInDim ⟨2, ![E, 1]⟩ ![0] hc v

theorem colV_wrapV_apply (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (nw : BitVec 32) (v : IVec ⟨1, ![E]⟩ 32) (e : Fin E) :
    colV hc (wrapV hb nw v) (ix2 e (0 : Fin 1)) = wrapW nw (v (ix1 e)) :=
  (Keepdims.column_apply hc _ e).trans (wrapV_apply hb nw v e)

/-- A vector gathered at the edges' wrapped node numbers. -/
theorem gatherVec_apply {α : Type} (hN : 0 < N)
    (wfv : GatherDims.WF ⟨1, ![N]⟩ ⟨2, ![E, 1]⟩ ⟨1, ![E]⟩ [] [0] [] [0] [] 1 ![1])
    (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (nw : BitVec 32) (x : (⟨1, ![N]⟩ : Shape).Idx → α) (v : IVec ⟨1, ![E]⟩ 32) (e : Fin E) :
    Host.gather (vecGather N E wfv) x (colV hc (wrapV hb nw v)) (ix1 e) = x (ix1 (rowOf N hN nw (v (ix1 e)))) := by
  refine (gather_vec_apply hN wfv x _ e).trans ?_
  refine congrArg x (congrArg ix1 (Fin.ext ?_))
  show min ((colV hc (wrapV hb nw v)) (ix2 e (0 : Fin 1))).toInt.toNat (N - 1) = min (wrapW nw (v (ix1 e))).toInt.toNat (N - 1)
  rw [colV_wrapV_apply]

/-- The rows of a table gathered at the edges' wrapped node numbers. -/
theorem gatherRows_apply {α : Type} (hN : 0 < N)
    (wfr : GatherDims.WF ⟨2, ![N, C]⟩ ⟨2, ![E, 1]⟩ ⟨2, ![E, C]⟩ [1] [0] [] [0] [] 1 ![1, C])
    (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (nw : BitVec 32) (x : (⟨2, ![N, C]⟩ : Shape).Idx → α) (v : IVec ⟨1, ![E]⟩ 32) (e : Fin E) (c : Fin C) :
    Host.gather (rowGather N E C wfr) x (colV hc (wrapV hb nw v)) (ix2 e c) = x (ix2 (rowOf N hN nw (v (ix1 e))) c) := by
  refine (gather_rows_apply hN wfr x _ e c).trans ?_
  refine congrArg x (congrArg (fun r => ix2 r c) (Fin.ext ?_))
  show min ((colV hc (wrapV hb nw v)) (ix2 e (0 : Fin 1))).toInt.toNat (N - 1) = min (wrapW nw (v (ix1 e))).toInt.toNat (N - 1)
  rw [colV_wrapV_apply]

/-- The weight of every edge: the node vector `dis` at its source times `dis` at its target. -/
def normV (wfv : GatherDims.WF ⟨1, ![N]⟩ ⟨2, ![E, 1]⟩ ⟨1, ![E]⟩ [] [0] [] [0] [] 1 ![1])
    (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (nw : BitVec 32) (dis : FVec Ideal ⟨1, ![N]⟩ .f32) (s d : IVec ⟨1, ![E]⟩ 32) : FVec Ideal ⟨1, ![E]⟩ .f32 :=
  mulf (F := Ideal) (φ := .f32) (Host.gather (vecGather N E wfv) dis (colV hc (wrapV hb nw s)))
    (Host.gather (vecGather N E wfv) dis (colV hc (wrapV hb nw d)))

theorem normV_apply (hN : 0 < N) (wfv : GatherDims.WF ⟨1, ![N]⟩ ⟨2, ![E, 1]⟩ ⟨1, ![E]⟩ [] [0] [] [0] [] 1 ![1])
    (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (nw : BitVec 32) (dis : FVec Ideal ⟨1, ![N]⟩ .f32) (s d : IVec ⟨1, ![E]⟩ 32) (e : Fin E) :
    normV wfv hb hc nw dis s d (ix1 e)
      = dis (ix1 (rowOf N hN nw (s (ix1 e)))) * dis (ix1 (rowOf N hN nw (d (ix1 e)))) := by
  show Host.gather (vecGather N E wfv) dis (colV hc (wrapV hb nw s)) (ix1 e)
      * Host.gather (vecGather N E wfv) dis (colV hc (wrapV hb nw d)) (ix1 e) = _
  rw [gatherVec_apply hN, gatherVec_apply hN]

/-- The edge count into every node, started from the word `zw`, one `ow` per edge. -/
def countV (wf1 : ScatterDims.WF ⟨1, ![N]⟩ ⟨2, ![E, 1]⟩ ⟨1, ![E]⟩ [] [0] [0] 1)
    (hzN : S0.BroadcastsInDim ⟨1, ![N]⟩ (![] : Fin 0 → Fin (⟨1, ![N]⟩ : Shape).rank))
    (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (zw ow : BitVec 32) (d : IVec ⟨1, ![E]⟩ 32) : FVec Ideal ⟨1, ![N]⟩ .f32 :=
  Host.scatterAdd (F := Ideal) (vecScatter N E wf1)
    (broadcastInDim ⟨1, ![N]⟩ ![] hzN (constant (F := Ideal) S0 .f32 zw)) (colV hc d)
    (broadcastInDim ⟨1, ![E]⟩ ![] hb (constant (F := Ideal) S0 .f32 ow))

theorem countV_apply (wf1 : ScatterDims.WF ⟨1, ![N]⟩ ⟨2, ![E, 1]⟩ ⟨1, ![E]⟩ [] [0] [0] 1)
    (hzN : S0.BroadcastsInDim ⟨1, ![N]⟩ (![] : Fin 0 → Fin (⟨1, ![N]⟩ : Shape).rank))
    (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (zw ow : BitVec 32) (d : IVec ⟨1, ![E]⟩ 32) (i : Fin N) :
    countV wf1 hzN hb hc zw ow d (ix1 i)
      = Ideal.ofBits .f32 zw
        + ∑ e ∈ Finset.univ.filter (fun e : Fin E => (d (ix1 e)).toInt = (i.val : ℤ)), Ideal.ofBits .f32 ow := by
  unfold countV
  rw [host_scatterAdd_vec_apply, splat_apply]
  have hcol : ∀ e : Fin E, colV hc d (ix2 e (0 : Fin 1)) = d (ix1 e) := fun e => Keepdims.column_apply hc d e
  simp only [hcol, splat_apply]
  rfl

/-- The weighted sum of gathered rows into every node: started from the word `zw`, edge `e` adds row `src e` of
    `x` times the edge's weight into row `dst e`. -/
def sumV (wfs : ScatterDims.WF ⟨2, ![N, C]⟩ ⟨2, ![E, 1]⟩ ⟨2, ![E, C]⟩ [1] [0] [0] 1)
    (wfr : GatherDims.WF ⟨2, ![N, C]⟩ ⟨2, ![E, 1]⟩ ⟨2, ![E, C]⟩ [1] [0] [] [0] [] 1 ![1, C])
    (hz : S0.BroadcastsInDim ⟨2, ![N, C]⟩ (![] : Fin 0 → Fin (⟨2, ![N, C]⟩ : Shape).rank))
    (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (nw zw : BitVec 32) (x : FVec Ideal ⟨2, ![N, C]⟩ .f32) (s d : IVec ⟨1, ![E]⟩ 32) (nrm : FVec Ideal ⟨1, ![E]⟩ .f32) :
    FVec Ideal ⟨2, ![N, C]⟩ .f32 :=
  Host.scatterAdd (F := Ideal) (rowScatter N E C wfs)
    (broadcastInDim ⟨2, ![N, C]⟩ ![] hz (constant (F := Ideal) S0 .f32 zw)) (colV hc d)
    (mulf (F := Ideal) (φ := .f32) (Host.gather (rowGather N E C wfr) x (colV hc (wrapV hb nw s)))
      (broadcastInDim ⟨2, ![E, C]⟩ ![0, 1] h2 (colV hc nrm)))

theorem sumV_apply (hN : 0 < N) (wfs : ScatterDims.WF ⟨2, ![N, C]⟩ ⟨2, ![E, 1]⟩ ⟨2, ![E, C]⟩ [1] [0] [0] 1)
    (wfr : GatherDims.WF ⟨2, ![N, C]⟩ ⟨2, ![E, 1]⟩ ⟨2, ![E, C]⟩ [1] [0] [] [0] [] 1 ![1, C])
    (hz : S0.BroadcastsInDim ⟨2, ![N, C]⟩ (![] : Fin 0 → Fin (⟨2, ![N, C]⟩ : Shape).rank))
    (hb : S0.BroadcastsInDim ⟨1, ![E]⟩ (![] : Fin 0 → Fin (⟨1, ![E]⟩ : Shape).rank))
    (hc : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (nw zw : BitVec 32) (x : FVec Ideal ⟨2, ![N, C]⟩ .f32) (s d : IVec ⟨1, ![E]⟩ 32) (nrm : FVec Ideal ⟨1, ![E]⟩ .f32)
    (i : Fin N) (c : Fin C) :
    sumV wfs wfr hz hb hc h2 nw zw x s d nrm (ix2 i c)
      = Ideal.ofBits .f32 zw
        + ∑ e ∈ Finset.univ.filter (fun e : Fin E => (d (ix1 e)).toInt = (i.val : ℤ)),
            x (ix2 (rowOf N hN nw (s (ix1 e))) c) * nrm (ix1 e) := by
  unfold sumV
  rw [host_scatterAdd_rows_apply, splat_apply]
  have hcol : ∀ e : Fin E, colV hc d (ix2 e (0 : Fin 1)) = d (ix1 e) := fun e => Keepdims.column_apply hc d e
  simp only [hcol]
  refine congrArg₂ (· + ·) rfl (Finset.sum_congr rfl fun e _ => ?_)
  show Host.gather (rowGather N E C wfr) x (colV hc (wrapV hb nw s)) (ix2 e c)
      * broadcastInDim ⟨2, ![E, C]⟩ ![0, 1] h2 (colV hc nrm) (ix2 e c) = _
  rw [gatherRows_apply hN, Keepdims.rows_apply hc h2 nrm e c]

end

/-! ## An edge list joined from real edges and one loop per node -/

section
variable {α : Type} {E N EN : Nat}

/-- A position below `E` of the joined list reads the first list. -/
theorem join_left (a : (⟨1, ![E]⟩ : Shape).Idx → α) (b : (⟨1, ![N]⟩ : Shape).Idx → α)
    (h : Shape.Concatenates (([⟨⟨1, ![E]⟩, a⟩, ⟨⟨1, ![N]⟩, b⟩] : List ((s : Shape) × (s.Idx → α))).map (·.1)) ⟨1, ![EN]⟩ 0)
    (e : Fin E) (he : e.val < EN) :
    concatenate ⟨1, ![EN]⟩ 0 [⟨⟨1, ![E]⟩, a⟩, ⟨⟨1, ![N]⟩, b⟩] h (ix1 ⟨e.val, he⟩) = a (ix1 e) :=
  concatenate_apply_piece 0 _ h _ 0 (show (0 : ℕ) < 2 by omega) ⟨1, ![E]⟩ a rfl rfl 0 rfl (ix1 e)
    (fun b hb => absurd (Subsingleton.elim _ _) hb) (by show 0 + e.val = e.val; omega)

/-- Position `E + j` of the joined list reads entry `j` of the second list. -/
theorem join_right (a : (⟨1, ![E]⟩ : Shape).Idx → α) (b : (⟨1, ![N]⟩ : Shape).Idx → α)
    (h : Shape.Concatenates (([⟨⟨1, ![E]⟩, a⟩, ⟨⟨1, ![N]⟩, b⟩] : List ((s : Shape) × (s.Idx → α))).map (·.1)) ⟨1, ![EN]⟩ 0)
    (j : Fin N) (hj : E + j.val < EN) :
    concatenate ⟨1, ![EN]⟩ 0 [⟨⟨1, ![E]⟩, a⟩, ⟨⟨1, ![N]⟩, b⟩] h (ix1 ⟨E + j.val, hj⟩) = b (ix1 j) :=
  concatenate_apply_piece 0 _ h _ 1 (show (1 : ℕ) < 2 by omega) ⟨1, ![N]⟩ b rfl rfl E (by simp) (ix1 j)
    (fun b hb => absurd (Subsingleton.elim _ _) hb) (by show E + j.val = E + j.val; rfl)

end

/-! ## A node's own number is left alone by the wrap and the clamp -/

/-- The word of a node number `j < N` (with `N` below 2³¹), read signed, is `j`. -/
theorem toInt_ofNat_of_lt {N : Nat} (hN31 : N < 2 ^ 31) (j : Fin N) : (BitVec.ofNat 32 j.val).toInt = (j.val : ℤ) := by
  have hj := j.isLt
  have h31 : (2 : ℕ) ^ 31 = 2147483648 := by norm_num
  rw [BitVec.toInt_eq_toNat_cond, BitVec.toNat_ofNat]
  have hmod : j.val % 2 ^ 32 = j.val := Nat.mod_eq_of_lt (by omega)
  rw [hmod, if_pos (by omega)]

/-- The word of a node number `j < N` (with `N` below 2³¹) names row `j`. -/
theorem rowOf_ofNat {N : Nat} (hN : 0 < N) (hN31 : N < 2 ^ 31) (nw : BitVec 32) (j : Fin N) :
    rowOf N hN nw (BitVec.ofNat 32 j.val) = j := by
  have hj := j.isLt
  have hint : (BitVec.ofNat 32 j.val).toInt = (j.val : ℤ) := toInt_ofNat_of_lt hN31 j
  have hw : wrapW nw (BitVec.ofNat 32 j.val) = BitVec.ofNat 32 j.val := by
    unfold wrapW
    exact wrapNeg_of_nonneg _ _ _ (by decide) (by rw [hint]; exact_mod_cast Nat.zero_le _)
  refine Fin.ext ?_
  show min (wrapW nw (BitVec.ofNat 32 j.val)).toInt.toNat (N - 1) = j.val
  rw [hw, hint]
  omega

end Idealize.ShloMosaic.GraphRead

end
-- ==== Proof.LibEdgeSplit.lean ====
/-
  A sum over an edge list joined from two parts.

  Fix E + N positions, the first E holding one family of edges and the last N a second family in which position
  E + j belongs to node j (a loop at every node, listed in node order). A sum over all positions splits into the
  sum over the first part plus the sum over the second; and a sum restricted to the positions whose target is
  node i keeps, of the second part, exactly the one term at position E + i.
-/
import Mathlib.Algebra.BigOperators.Fin
import Mathlib.Algebra.BigOperators.Group.Finset.Basic

open scoped BigOperators

namespace Idealize.ShloMosaic.EdgeSplit

/-- A sum over E + N positions is the sum over the first E plus the sum over the last N. -/
theorem sum_fin_append {M : Type*} [AddCommMonoid M] {E N EN : ℕ} (h : EN = E + N) (f : Fin EN → M) :
    ∑ e : Fin EN, f e
      = (∑ e : Fin E, f ⟨e.val, by have := e.isLt; omega⟩) + ∑ j : Fin N, f ⟨E + j.val, by have := j.isLt; omega⟩ := by
  subst h
  rw [Fin.sum_univ_add]
  rfl

/-- The positions whose target is node i: those of the first part with that target, and position E + i of the
    second part (whose target is its own node). -/
theorem filter_sum_append {M : Type*} [AddCommMonoid M] {E N EN : ℕ} (h : EN = E + N)
    (t' : Fin EN → ℤ) (u' : Fin EN → M) (t : Fin E → ℤ) (u : Fin E → M) (d : Fin N → M)
    (ht : ∀ e : Fin E, t' ⟨e.val, by have := e.isLt; omega⟩ = t e)
    (hu : ∀ e : Fin E, u' ⟨e.val, by have := e.isLt; omega⟩ = u e)
    (htl : ∀ j : Fin N, t' ⟨E + j.val, by have := j.isLt; omega⟩ = (j.val : ℤ))
    (hul : ∀ j : Fin N, u' ⟨E + j.val, by have := j.isLt; omega⟩ = d j) (i : Fin N) :
    ∑ e ∈ Finset.univ.filter (fun e => t' e = (i.val : ℤ)), u' e
      = (∑ e ∈ Finset.univ.filter (fun e => t e = (i.val : ℤ)), u e) + d i := by
  rw [Finset.sum_filter, Finset.sum_filter, sum_fin_append h]
  congr 1
  · refine Finset.sum_congr rfl fun e _ => ?_
    rw [ht, hu]
  · rw [Finset.sum_eq_single i]
    · rw [htl, hul, if_pos rfl]
    · intro j _ hne
      rw [htl, if_neg]
      intro hh
      exact hne (Fin.ext (by exact_mod_cast hh))
    · intro hi
      exact absurd (Finset.mem_univ i) hi

end Idealize.ShloMosaic.EdgeSplit
-- ==== Proof.GraphLaw.lean ====
/-
  Loops listed as edges against loops added densely.

  One graph layer can be written two ways. Either the N loops (node j to itself) are appended to the E real edges
  and everything is summed over the E + N positions of the joined list; or only the real edges are summed and each
  node's own loop is added as one more term. Position E + j of the joined list has source and target j, so its
  term is the loop's, and the two sums differ only in how they are bracketed and in the order of one product:
      count:   z + ∑_{joined, target i} one                      =  (z + ∑_{real, target i} one) + one
      rows:    z + ∑_{joined, target i} x (src) * (dis src * dis dst)
                                                                  =  (z + ∑_{real, target i} x (src) * (dis src * dis dst)) + (dis i * dis i) * x i.
  Only associativity of the sum and commutativity of the product are used, which hold on all extended reals.
-/
import proofs.«103109_j73512660238643_2_alg».proof.Proof.GraphRead
import proofs.«103109_j73512660238643_2_alg».proof.Proof.LibEdgeSplit

noncomputable section

open scoped BigOperators

namespace Idealize.ShloMosaic.GraphLaw

open Idealize.ShloMosaic Idealize.ShloMosaic.ValueIdx Idealize.ShloMosaic.GraphRead Idealize.ShloMosaic.EdgeSplit
open Idealize.ShloMosaic.RowScatter Idealize.ShloMosaic.VecScatter

/-- The edge count of the joined list is the real edges' count plus one for the node's loop. -/
theorem count_join {N E EN : Nat} (h : EN = E + N) (hN31 : N < 2 ^ 31)
    (D : Fin E → BitVec 32) (D' : Fin EN → BitVec 32)
    (hd : ∀ e : Fin E, D' ⟨e.val, by have := e.isLt; omega⟩ = D e)
    (hdl : ∀ j : Fin N, D' ⟨E + j.val, by have := j.isLt; omega⟩ = BitVec.ofNat 32 j.val)
    (z one : EReal) (i : Fin N) :
    z + ∑ e ∈ Finset.univ.filter (fun e : Fin EN => (D' e).toInt = (i.val : ℤ)), one
      = (z + ∑ e ∈ Finset.univ.filter (fun e : Fin E => (D e).toInt = (i.val : ℤ)), one) + one := by
  refine (congrArg (z + ·) (filter_sum_append h (fun e => (D' e).toInt) (fun _ => one) (fun e => (D e).toInt)
    (fun _ => one) (fun _ => one) (fun e => congrArg BitVec.toInt (hd e)) (fun _ => rfl)
    (fun j => (congrArg BitVec.toInt (hdl j)).trans (toInt_ofNat_of_lt hN31 j)) (fun _ => rfl) i)).trans ?_
  exact (add_assoc _ _ _).symm

/-- The weighted row sum of the joined list is the real edges' sum plus the node's own row times dis². -/
theorem sum_join {N E EN : Nat} (h : EN = E + N) (hN : 0 < N) (hN31 : N < 2 ^ 31) (nw : BitVec 32)
    (S D : Fin E → BitVec 32) (S' D' : Fin EN → BitVec 32)
    (hs : ∀ e : Fin E, S' ⟨e.val, by have := e.isLt; omega⟩ = S e)
    (hd : ∀ e : Fin E, D' ⟨e.val, by have := e.isLt; omega⟩ = D e)
    (hsl : ∀ j : Fin N, S' ⟨E + j.val, by have := j.isLt; omega⟩ = BitVec.ofNat 32 j.val)
    (hdl : ∀ j : Fin N, D' ⟨E + j.val, by have := j.isLt; omega⟩ = BitVec.ofNat 32 j.val)
    (z : EReal) (Dis X : Fin N → EReal) (i : Fin N) :
    z + ∑ e ∈ Finset.univ.filter (fun e : Fin EN => (D' e).toInt = (i.val : ℤ)),
          X (rowOf N hN nw (S' e)) * (Dis (rowOf N hN nw (S' e)) * Dis (rowOf N hN nw (D' e)))
      = (z + ∑ e ∈ Finset.univ.filter (fun e : Fin E => (D e).toInt = (i.val : ℤ)),
          X (rowOf N hN nw (S e)) * (Dis (rowOf N hN nw (S e)) * Dis (rowOf N hN nw (D e)))) + (Dis i * Dis i) * X i := by
  refine (congrArg (z + ·) (filter_sum_append h (fun e => (D' e).toInt)
    (fun e => X (rowOf N hN nw (S' e)) * (Dis (rowOf N hN nw (S' e)) * Dis (rowOf N hN nw (D' e))))
    (fun e => (D e).toInt)
    (fun e => X (rowOf N hN nw (S e)) * (Dis (rowOf N hN nw (S e)) * Dis (rowOf N hN nw (D e))))
    (fun j => X j * (Dis j * Dis j))
    (fun e => congrArg BitVec.toInt (hd e))
    (fun e => by
      show X (rowOf N hN nw (S' _)) * (Dis (rowOf N hN nw (S' _)) * Dis (rowOf N hN nw (D' _))) = _
      rw [hs, hd])
    (fun j => (congrArg BitVec.toInt (hdl j)).trans (toInt_ofNat_of_lt hN31 j))
    (fun j => by
      show X (rowOf N hN nw (S' _)) * (Dis (rowOf N hN nw (S' _)) * Dis (rowOf N hN nw (D' _))) = _
      rw [hsl, hdl, rowOf_ofNat hN hN31])
    i)).trans ?_
  show z + (_ + X i * (Dis i * Dis i)) = _
  rw [← add_assoc, mul_comm (X i)]

section
variable {N E EN C : Nat}

/-- The degree both ways: the real edges' count plus one is the joined list's count. -/
theorem count_layer (h : EN = E + N) (hN31 : N < 2 ^ 31)
    (wf1 : ScatterDims.WF ⟨1, ![N]⟩ ⟨2, ![E, 1]⟩ ⟨1, ![E]⟩ [] [0] [0] 1)
    (wf1' : ScatterDims.WF ⟨1, ![N]⟩ ⟨2, ![EN, 1]⟩ ⟨1, ![EN]⟩ [] [0] [0] 1)
    (hzN : S0.BroadcastsInDim ⟨1, ![N]⟩ (![] : Fin 0 → Fin (⟨1, ![N]⟩ : Shape).rank))
    (hb : S0.BroadcastsInDim ⟨1, ![E]⟩ (![] : Fin 0 → Fin (⟨1, ![E]⟩ : Shape).rank))
    (hb' : S0.BroadcastsInDim ⟨1, ![EN]⟩ (![] : Fin 0 → Fin (⟨1, ![EN]⟩ : Shape).rank))
    (hc : (⟨1, ![E]⟩ : Shape).BroadcastsInDim ⟨2, ![E, 1]⟩ (![0] : Fin 1 → Fin (⟨2, ![E, 1]⟩ : Shape).rank))
    (hc' : (⟨1, ![EN]⟩ : Shape).BroadcastsInDim ⟨2, ![EN, 1]⟩ (![0] : Fin 1 → Fin (⟨2, ![EN, 1]⟩ : Shape).rank))
    (zw ow : BitVec 32) (d : IVec ⟨1, ![E]⟩ 32) (d' : IVec ⟨1, ![EN]⟩ 32)
    (hd : ∀ e : Fin E, d' (ix1 ⟨e.val, by have := e.isLt; omega⟩) = d (ix1 e))
    (hdl : ∀ j : Fin N, d' (ix1 ⟨E + j.val, by have := j.isLt; omega⟩) = BitVec.ofNat 32 j.val) :
    addf (F := Ideal) (φ := .f32) (countV wf1 hzN hb hc zw ow d)
        (broadcastInDim ⟨1, ![N]⟩ ![] hzN (constant (F := Ideal) S0 .f32 ow))
      = countV wf1' hzN hb' hc' zw ow d' := by
  funext j
  obtain ⟨i, rfl⟩ : ∃ i : Fin N, j = ix1 i := ⟨j 0, eq_ix1 j⟩
  show countV wf1 hzN hb hc zw ow d (ix1 i) + broadcastInDim ⟨1, ![N]⟩ ![] hzN (constant (F := Ideal) S0 .f32 ow) (ix1 i) = _
  rw [countV_apply, countV_apply, splat_apply]
  exact (count_join h hN31 (fun e => d (ix1 e)) (fun e => d' (ix1 e)) hd hdl _ _ i).symm

/-- One layer both ways, for a table of any width: the real edges' weighted row sum plus dis² times the table is
    the joined list's weighted row sum. -/
theorem sum_layer (h : EN = E + N) (hN : 0 < N) (hN31 : N < 2 ^ 31)
    (wfs : ScatterDims.WF ⟨2, ![N, C]⟩ ⟨2, ![E, 1]⟩ ⟨2, ![E, C]⟩ [1] [0] [0] 1)
    (wfs' : ScatterDims.WF ⟨2, ![N, C]⟩ ⟨2, ![EN, 1]⟩ ⟨2, ![EN, C]⟩ [1] [0] [0] 1)
    (wfr : GatherDims.WF ⟨2, ![N, C]⟩ ⟨2, ![E, 1]⟩ ⟨2, ![E, C]⟩ [1] [0] [] [0] [] 1 ![1, C])
    (wfr' : GatherDims.WF ⟨2, ![N, C]⟩ ⟨2, ![EN, 1]⟩ ⟨2, ![EN, C]⟩ [1] [0] [] [0] [] 1 ![1, C])
    (wfv : GatherDims.WF ⟨1, ![N]⟩ ⟨2, ![E, 1]⟩ ⟨1, ![E]⟩ [] [0] [] [0] [] 1 ![1])
    (wfv' : GatherDims.WF ⟨1, ![N]⟩ ⟨2, ![EN, 1]⟩ ⟨1, ![EN]⟩ [] [0] [] [0] [] 1 ![1])
    (hz : S0.BroadcastsInDim ⟨2, ![N, C]⟩ (![] : Fin 0 → Fin (⟨2, ![N, C]⟩ : Shape).rank))
    (hb : S0.BroadcastsInDim ⟨1, ![E]⟩ (![] : Fin 0 → Fin (⟨1, ![E]⟩ : Shape).rank))
    (hb' : S0.BroadcastsInDim ⟨1, ![EN]⟩ (![] : Fin 0 → Fin (⟨1, ![EN]⟩ : Shape).rank))
    (hc : (⟨1, ![E]⟩ : Shape).BroadcastsInDim ⟨2, ![E, 1]⟩ (![0] : Fin 1 → Fin (⟨2, ![E, 1]⟩ : Shape).rank))
    (hc' : (⟨1, ![EN]⟩ : Shape).BroadcastsInDim ⟨2, ![EN, 1]⟩ (![0] : Fin 1 → Fin (⟨2, ![EN, 1]⟩ : Shape).rank))
    (h2 : (⟨2, ![E, 1]⟩ : Shape).BroadcastsInDim ⟨2, ![E, C]⟩ (![0, 1] : Fin 2 → Fin (⟨2, ![E, C]⟩ : Shape).rank))
    (h2' : (⟨2, ![EN, 1]⟩ : Shape).BroadcastsInDim ⟨2, ![EN, C]⟩ (![0, 1] : Fin 2 → Fin (⟨2, ![EN, C]⟩ : Shape).rank))
    (hs1 : (⟨1, ![N]⟩ : Shape).BroadcastsInDim ⟨2, ![N, 1]⟩ (![0] : Fin 1 → Fin (⟨2, ![N, 1]⟩ : Shape).rank))
    (hs2 : (⟨2, ![N, 1]⟩ : Shape).BroadcastsInDim ⟨2, ![N, C]⟩ (![0, 1] : Fin 2 → Fin (⟨2, ![N, C]⟩ : Shape).rank))
    (nw zw : BitVec 32) (dis : FVec Ideal ⟨1, ![N]⟩ .f32) (s d : IVec ⟨1, ![E]⟩ 32) (s' d' : IVec ⟨1, ![EN]⟩ 32)
    (hs : ∀ e : Fin E, s' (ix1 ⟨e.val, by have := e.isLt; omega⟩) = s (ix1 e))
    (hd : ∀ e : Fin E, d' (ix1 ⟨e.val, by have := e.isLt; omega⟩) = d (ix1 e))
    (hsl : ∀ j : Fin N, s' (ix1 ⟨E + j.val, by have := j.isLt; omega⟩) = BitVec.ofNat 32 j.val)
    (hdl : ∀ j : Fin N, d' (ix1 ⟨E + j.val, by have := j.isLt; omega⟩) = BitVec.ofNat 32 j.val)
    (x : FVec Ideal ⟨2, ![N, C]⟩ .f32) :
    addf (F := Ideal) (φ := .f32) (sumV wfs wfr hz hb hc h2 nw zw x s d (normV wfv hb hc nw dis s d))
        (mulf (F := Ideal) (φ := .f32)
          (broadcastInDim ⟨2, ![N, C]⟩ ![0, 1] hs2 (broadcastInDim ⟨2, ![N, 1]⟩ ![0] hs1 (mulf (F := Ideal) (φ := .f32) dis dis))) x)
      = sumV wfs' wfr' hz hb' hc' h2' nw zw x s' d' (normV wfv' hb' hc' nw dis s' d') := by
  funext j
  obtain ⟨i, c, rfl⟩ : ∃ (i : Fin N) (c : Fin C), j = ix2 i c := ⟨j 0, j 1, eq_ix2 j⟩
  show sumV wfs wfr hz hb hc h2 nw zw x s d (normV wfv hb hc nw dis s d) (ix2 i c)
      + broadcastInDim ⟨2, ![N, C]⟩ ![0, 1] hs2 (broadcastInDim ⟨2, ![N, 1]⟩ ![0] hs1 (mulf (F := Ideal) (φ := .f32) dis dis)) (ix2 i c)
        * x (ix2 i c) = _
  rw [sumV_apply hN, sumV_apply hN, Keepdims.rows_apply hs1 hs2 _ i c]
  simp only [normV_apply hN]
  exact (sum_join h hN hN31 nw (fun e => s (ix1 e)) (fun e => d (ix1 e)) (fun e => s' (ix1 e)) (fun e => d' (ix1 e))
    hs hd hsl hdl _ (fun r => dis (ix1 r)) (fun r => x (ix2 r c)) i).symm

end

end Idealize.ShloMosaic.GraphLaw

end
-- ==== Proof.Bridge.lean ====
/-
  The kernel program's result is the reference program's result, as functions of the six argument arrays.

  Both are two graph-convolution layers over N = 50000 nodes. The reference appends the 50000 loops to the 500000
  real edges and sums over the 550000 positions of the joined lists; the kernel program sums over the real edges
  and adds each node's own loop densely (one more in the degree, dis² times the node's row in a layer). Position
  500000 + j of a joined list holds node j's number, which the wrap and the clamp leave alone, so every stage of
  one program is the matching stage of the other:
    degree      (count over real edges) + 1            =  count over the joined list;
    dis         the same function of the degree;
    X · W1      the first region's whole result is the reference's first product;
    layer       (sum over real edges) + dis² ⊙ P       =  sum over the joined list, for P of 128 and of 64 columns;
    relu(· + b1) · W2   the second region's whole result is the reference's second product;
  and both add the last bias along every row.
-/
import proofs.«103109_j73512660238643_2_alg».proof.Proof.KStages
import proofs.«103109_j73512660238643_2_alg».proof.Proof.RefReadP
import proofs.«103109_j73512660238643_2_alg».proof.Proof.GraphLaw

noncomputable section

open scoped BigOperators

namespace Cert.Bridge

open Idealize.ShloMosaic Idealize.ShloMosaic.ValueIdx Idealize.ShloMosaic.GraphRead Idealize.ShloMosaic.GraphLaw
open Idealize.ShloMosaic.RowScatter Idealize.ShloMosaic.VecScatter
open Cert.KernelIdeal.Stage Cert.ReferenceIdeal.Read

/-! ## The joined edge lists -/

/-- A position below 500000 of the joined source list is the real edge's source. -/
theorem src_left (x1 : (⟨Cert.KernelIdeal.S2x500000, .i32⟩ : BufTy).Contents (Elt Ideal)) (e : Fin 500000) :
    val_main_v6 (F := Ideal) x1 (ix1 ⟨e.val, by have := e.isLt; omega⟩) = src x1 (ix1 e) :=
  join_left (EN := 550000) (val_main_v1 (F := Ideal) x1) (val_main_v5 (F := Ideal)) _ e _

/-- Position 500000 + j of the joined source list is node j's own number. -/
theorem src_right (x1 : (⟨Cert.KernelIdeal.S2x500000, .i32⟩ : BufTy).Contents (Elt Ideal)) (j : Fin 50000) :
    val_main_v6 (F := Ideal) x1 (ix1 ⟨500000 + j.val, by have := j.isLt; omega⟩) = BitVec.ofNat 32 j.val :=
  join_right (EN := 550000) (val_main_v1 (F := Ideal) x1) (val_main_v5 (F := Ideal)) _ j _

theorem dst_left (x1 : (⟨Cert.KernelIdeal.S2x500000, .i32⟩ : BufTy).Contents (Elt Ideal)) (e : Fin 500000) :
    val_main_v7 (F := Ideal) x1 (ix1 ⟨e.val, by have := e.isLt; omega⟩) = dst x1 (ix1 e) :=
  join_left (EN := 550000) (val_main_v3 (F := Ideal) x1) (val_main_v5 (F := Ideal)) _ e _

theorem dst_right (x1 : (⟨Cert.KernelIdeal.S2x500000, .i32⟩ : BufTy).Contents (Elt Ideal)) (j : Fin 50000) :
    val_main_v7 (F := Ideal) x1 (ix1 ⟨500000 + j.val, by have := j.isLt; omega⟩) = BitVec.ofNat 32 j.val :=
  join_right (EN := 550000) (val_main_v3 (F := Ideal) x1) (val_main_v5 (F := Ideal)) _ j _

/-! ## The degree and dis -/

/-- The real edges' count plus one is the joined list's count. -/
theorem deg_eq (x1 : (⟨Cert.KernelIdeal.S2x500000, .i32⟩ : BufTy).Contents (Elt Ideal)) :
    deg x1 = val_main_v11 (F := Ideal) x1 := by
  show addf (F := Ideal) (φ := .f32) (countV (N := 50000) (E := 500000) _ _ _ _ 0x00000000#32 0x3F800000#32 (dst x1))
      (broadcastInDim ⟨1, ![50000]⟩ ![] _ (constant (F := Ideal) S0 .f32 0x3F800000#32))
    = countV (N := 50000) (E := 550000) _ _ _ _ 0x00000000#32 0x3F800000#32 (val_main_v7 (F := Ideal) x1)
  exact count_layer (by norm_num) (by norm_num) _ _ _ _ _ _ _ _ _ _ _ (dst_left x1) (dst_right x1)

/-- dis is the same function of the degree in both programs. -/
theorem dis_eq (x1 : (⟨Cert.KernelIdeal.S2x500000, .i32⟩ : BufTy).Contents (Elt Ideal)) :
    dis x1 = val_main_v17 (F := Ideal) x1 := by
  show disOf (deg x1) = disOf (val_main_v11 (F := Ideal) x1)
  rw [deg_eq]

/-! ## One layer, for a table of 128 and of 64 columns -/

/-- The reference's layer on a 128-column table: the weighted row sum over the joined lists. -/
def refAgg128 (x1 : (⟨Cert.KernelIdeal.S2x500000, .i32⟩ : BufTy).Contents (Elt Ideal))
    (P : (⟨Cert.KernelIdeal.S50000x128, .f32⟩ : BufTy).Contents (Elt Ideal)) :
    (⟨Cert.KernelIdeal.S50000x128, .f32⟩ : BufTy).Contents (Elt Ideal) :=
  Host.scatterAdd (F := Ideal) Cert.ReferenceIdeal.scatter_S50000x128_S550000x1_S550000x128_1_0_0_1
    (val_main_v43 (F := Ideal)) (val_main_v44 (F := Ideal) x1)
    (mulf (F := Ideal) (φ := .f32)
      (Host.gather Cert.ReferenceIdeal.gather_S50000x128_S550000x1_S550000x128_1_0_n_n_0_1_1128 P (val_main_v38 (F := Ideal) x1))
      (val_main_v41 (F := Ideal) x1))

/-- The reference's layer on a 64-column table. -/
def refAgg64 (x1 : (⟨Cert.KernelIdeal.S2x500000, .i32⟩ : BufTy).Contents (Elt Ideal))
    (P : (⟨Cert.KernelIdeal.S50000x64, .f32⟩ : BufTy).Contents (Elt Ideal)) :
    (⟨Cert.KernelIdeal.S50000x64, .f32⟩ : BufTy).Contents (Elt Ideal) :=
  Host.scatterAdd (F := Ideal) Cert.ReferenceIdeal.scatter_S50000x64_S550000x1_S550000x64_1_0_0_1
    (val_main_v89 (F := Ideal)) (val_main_v90 (F := Ideal) x1)
    (mulf (F := Ideal) (φ := .f32)
      (Host.gather Cert.ReferenceIdeal.gather_S50000x64_S550000x1_S550000x64_1_0_n_n_0_1_164 P (val_main_v84 (F := Ideal) x1))
      (val_main_v87 (F := Ideal) x1))

theorem agg128_eq (x1 : (⟨Cert.KernelIdeal.S2x500000, .i32⟩ : BufTy).Contents (Elt Ideal))
    (P : (⟨Cert.KernelIdeal.S50000x128, .f32⟩ : BufTy).Contents (Elt Ideal)) : agg128 x1 P = refAgg128 x1 P := by
  show addf (F := Ideal) (φ := .f32)
      (sumV (N := 50000) (E := 500000) (C := 128) _ _ _ _ _ _ 50000#32 0x00000000#32 P (src x1) (dst x1)
        (normV (N := 50000) (E := 500000) _ _ _ 50000#32 (dis x1) (src x1) (dst x1)))
      (mulf (F := Ideal) (φ := .f32)
        (broadcastInDim ⟨2, ![50000, 128]⟩ ![0, 1] _ (broadcastInDim ⟨2, ![50000, 1]⟩ ![0] _ (mulf (F := Ideal) (φ := .f32) (dis x1) (dis x1)))) P)
    = sumV (N := 50000) (E := 550000) (C := 128) _ _ _ _ _ _ 50000#32 0x00000000#32 P
        (val_main_v6 (F := Ideal) x1) (val_main_v7 (F := Ideal) x1)
        (normV (N := 50000) (E := 550000) _ _ _ 50000#32 (val_main_v17 (F := Ideal) x1) (val_main_v6 (F := Ideal) x1) (val_main_v7 (F := Ideal) x1))
  rw [dis_eq]
  exact sum_layer (by norm_num) (by norm_num) (by norm_num) _ _ _ _ _ _ _ _ _ _ _ _ _ _ _ _ _ _ _ _ _ _
    (src_left x1) (dst_left x1) (src_right x1) (dst_right x1) P

theorem agg64_eq (x1 : (⟨Cert.KernelIdeal.S2x500000, .i32⟩ : BufTy).Contents (Elt Ideal))
    (P : (⟨Cert.KernelIdeal.S50000x64, .f32⟩ : BufTy).Contents (Elt Ideal)) : agg64 x1 P = refAgg64 x1 P := by
  show addf (F := Ideal) (φ := .f32)
      (sumV (N := 50000) (E := 500000) (C := 64) _ _ _ _ _ _ 50000#32 0x00000000#32 P (src x1) (dst x1)
        (normV (N := 50000) (E := 500000) _ _ _ 50000#32 (dis x1) (src x1) (dst x1)))
      (mulf (F := Ideal) (φ := .f32)
        (broadcastInDim ⟨2, ![50000, 64]⟩ ![0, 1] _ (broadcastInDim ⟨2, ![50000, 1]⟩ ![0] _ (mulf (F := Ideal) (φ := .f32) (dis x1) (dis x1)))) P)
    = sumV (N := 50000) (E := 550000) (C := 64) _ _ _ _ _ _ 50000#32 0x00000000#32 P
        (val_main_v6 (F := Ideal) x1) (val_main_v7 (F := Ideal) x1)
        (normV (N := 50000) (E := 550000) _ _ _ 50000#32 (val_main_v17 (F := Ideal) x1) (val_main_v6 (F := Ideal) x1) (val_main_v7 (F := Ideal) x1))
  rw [dis_eq]
  exact sum_layer (by norm_num) (by norm_num) (by norm_num) _ _ _ _ _ _ _ _ _ _ _ _ _ _ _ _ _ _ _ _ _ _
    (src_left x1) (dst_left x1) (src_right x1) (dst_right x1) P

/-! ## The two matrix products -/

/-- The first region's whole result is the reference's first product. -/
theorem P1_eq (x0 : (⟨Cert.KernelIdeal.S50000x256, .f32⟩ : BufTy).Contents (Elt Ideal))
    (x2 : (⟨Cert.KernelIdeal.S256x128, .f32⟩ : BufTy).Contents (Elt Ideal)) : P1 x0 x2 = val_main_v4 (F := Ideal) x0 x2 := by
  funext j
  rw [val_main_v4_apply]
  refine Finset.sum_congr rfl fun k _ => ?_
  have el : lidx_main_v4 j k = ix2 (j 0) k := funext fun a => Fin.ext (by
    match a with
    | ⟨0, _⟩ => rfl
    | ⟨1, _⟩ => rfl)
  have er : ridx_main_v4 j k = ix2 k (j 1) := funext fun a => Fin.ext (by
    match a with
    | ⟨0, _⟩ => rfl
    | ⟨1, _⟩ => rfl)
  rw [el, er]
  rfl

/-- The second region's whole result, on the reference's first layer, is the reference's second product. -/
theorem P2_eq (x0 : (⟨Cert.KernelIdeal.S50000x256, .f32⟩ : BufTy).Contents (Elt Ideal))
    (x1 : (⟨Cert.KernelIdeal.S2x500000, .i32⟩ : BufTy).Contents (Elt Ideal))
    (x2 : (⟨Cert.KernelIdeal.S256x128, .f32⟩ : BufTy).Contents (Elt Ideal))
    (x3 : (⟨Cert.KernelIdeal.S128, .f32⟩ : BufTy).Contents (Elt Ideal))
    (x4 : (⟨Cert.KernelIdeal.S128x64, .f32⟩ : BufTy).Contents (Elt Ideal)) :
    P2 (val_main_v45 (F := Ideal) x0 x1 x2) x3 x4 = val_main_v50 (F := Ideal) x0 x1 x2 x3 x4 := by
  funext j
  rw [val_main_v50_apply]
  refine Finset.sum_congr rfl fun k _ => ?_
  have el : lidx_main_v50 j k = ix2 (j 0) k := funext fun a => Fin.ext (by
    match a with
    | ⟨0, _⟩ => rfl
    | ⟨1, _⟩ => rfl)
  have er : ridx_main_v50 j k = ix2 k (j 1) := funext fun a => Fin.ext (by
    match a with
    | ⟨0, _⟩ => rfl
    | ⟨1, _⟩ => rfl)
  rw [el, er]
  refine congrArg (· * x4 (ix2 k (j 1))) ?_
  show max (val_main_v45 (F := Ideal) x0 x1 x2 (ix2 (j 0) k) + x3 (ix1 k)) zf
      = max (val_main_v45 (F := Ideal) x0 x1 x2 (ix2 (j 0) k) + val_main_v47 (F := Ideal) x3 (ix2 (j 0) k))
          (val_main_call1_v0 (F := Ideal) (ix2 (j 0) k))
  rw [show val_main_v47 (F := Ideal) x3 (ix2 (j 0) k) = x3 (ix1 k) from Keepdims.cols_apply _ _ x3 (j 0) k,
    show val_main_call1_v0 (F := Ideal) (ix2 (j 0) k) = zf from splat_apply _ _ _]

/-! ## The result -/

/-- The kernel program's result is the reference program's, for all argument arrays. -/
theorem result_eq (x0 : (⟨Cert.KernelIdeal.S50000x256, .f32⟩ : BufTy).Contents (Elt Ideal))
    (x1 : (⟨Cert.KernelIdeal.S2x500000, .i32⟩ : BufTy).Contents (Elt Ideal))
    (x2 : (⟨Cert.KernelIdeal.S256x128, .f32⟩ : BufTy).Contents (Elt Ideal))
    (x3 : (⟨Cert.KernelIdeal.S128, .f32⟩ : BufTy).Contents (Elt Ideal))
    (x4 : (⟨Cert.KernelIdeal.S128x64, .f32⟩ : BufTy).Contents (Elt Ideal))
    (x5 : (⟨Cert.KernelIdeal.S64, .f32⟩ : BufTy).Contents (Elt Ideal)) :
    result x0 x1 x2 x3 x4 x5 = val_main_v94 (F := Ideal) x0 x1 x2 x3 x4 x5 := by
  have h1 : agg128 x1 (P1 x0 x2) = val_main_v45 (F := Ideal) x0 x1 x2 := by
    rw [P1_eq, agg128_eq]; rfl
  have h2 : agg64 x1 (val_main_v50 (F := Ideal) x0 x1 x2 x3 x4) = val_main_v91 (F := Ideal) x0 x1 x2 x3 x4 := by
    rw [agg64_eq]; rfl
  show addf (F := Ideal) (φ := .f32) (agg64 x1 (P2 (agg128 x1 (P1 x0 x2)) x3 x4))
      (val_main_v93 (F := Ideal) x5) = addf (F := Ideal) (φ := .f32) (val_main_v91 (F := Ideal) x0 x1 x2 x3 x4) (val_main_v93 (F := Ideal) x5)
  rw [h1, P2_eq, h2]

end Cert.Bridge

end
-- ==== Proof.KRunKit.lean ====
/-
  The kernel program's run with the result buffer in its post: from any launch memory every weakly fair execution of
  @main terminates without a fault, the result buffer holds the last boundary's contents at the result reference, and
  the six argument arrays end as launched.
-/
import proofs.«103109_j73512660238643_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: it terminates, nothing faulting; the result buffer ends at the last boundary's contents and every
    argument array as launched. -/
theorem run_W7 : θ_run defs (onTc (τ := τ) (main (F := F))) ⟨m, fun _ => 0, ρ⟩ (fun r => ∀ c : Dev nD,
      r.2.mem ((c.tc : Thread nD τ).loc main_v70) = W7 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v70 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.KHost.lean ====
/-
  The kernel program's host operations, stretch by stretch. Each lemma reads one buffer after one stretch of host
  operations, from ANY contents the stretch starts from: the buffer holds the stage (KStages) of what the stretch's
  input buffers held. A buffer no operation of a stretch writes keeps its contents (the tactic `unwritten`).
-/
import proofs.«103109_j73512660238643_2_alg».proof.Proof.Gen.KernelIdeal.Launch
import proofs.«103109_j73512660238643_2_alg».proof.Proof.KStages
import Idealize.ShloMosaic.Lib.StableHlo.Run

set_option maxRecDepth 16384

noncomputable section

namespace Cert.KernelIdeal.KRun

open Cert.KernelIdeal Cert.KernelIdeal.Gen Idealize.ShloMosaic Idealize.ShloMosaic.TcCoe Idealize.SL.Sem

/-- Closes `StableHlo.after ops V b = V b` for a literal stretch `ops` and a reference none of its operations writes. -/
macro "unwritten" : tactic =>
  `(tactic| (refine StableHlo.after_of_forall_not_mem _ _ (List.forall_iff_forall_mem.mp ?_)
             simp only [hostOps0, hostOps0_1, hostOps0_2, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

variable (Vl : Valuation τ sig (Elt Ideal))

/-! ## The first stretch: the edge rows and the degree's pieces -/

theorem ops0_v1 : StableHlo.after (hostOps0 (F := Ideal)) Vl (Proc.devRef .tc main_v1) = Stage.src (Vl (Proc.devRef .tc main_arg1)) := by
  after_results; rfl

theorem ops0_v3 : StableHlo.after (hostOps0 (F := Ideal)) Vl (Proc.devRef .tc main_v3) = Stage.dst (Vl (Proc.devRef .tc main_arg1)) := by
  after_results; rfl

theorem ops0_v11 : StableHlo.after (hostOps0 (F := Ideal)) Vl (Proc.devRef .tc main_v11)
    = cmpf .ogt (Stage.deg (Vl (Proc.devRef .tc main_arg1))) (broadcastInDim S50000 ![] bcast_S_S50000 (constant (F := Ideal) S_ .f32 0x00000000#32)) := by
  after_results; rfl

theorem ops0_v14 : StableHlo.after (hostOps0 (F := Ideal)) Vl (Proc.devRef .tc main_v14)
    = Host.rsqrt (F := Ideal) (maximumf (Stage.deg (Vl (Proc.devRef .tc main_arg1))) (broadcastInDim S50000 ![] bcast_S_S50000 (constant (F := Ideal) S_ .f32 0x2B8CBCCC#32))) := by
  after_results; rfl

theorem ops0_cst_4 : StableHlo.after (hostOps0 (F := Ideal)) Vl (Proc.devRef .tc main_cst_4) = constant (F := Ideal) S_ .f32 0x00000000#32 := by
  after_results

/-! ## The second stretch: the select that guards the inverse square root -/

theorem ops0_1_v15 (x1 : (⟨S2x500000, .i32⟩ : BufTy).Contents (Elt Ideal))
    (h11 : Vl (Proc.devRef .tc main_v11) = cmpf .ogt (Stage.deg x1) (broadcastInDim S50000 ![] bcast_S_S50000 (constant (F := Ideal) S_ .f32 0x00000000#32)))
    (h14 : Vl (Proc.devRef .tc main_v14) = Host.rsqrt (F := Ideal) (maximumf (Stage.deg x1) (broadcastInDim S50000 ![] bcast_S_S50000 (constant (F := Ideal) S_ .f32 0x2B8CBCCC#32))))
    (hc : Vl (Proc.devRef .tc main_cst_4) = constant (F := Ideal) S_ .f32 0x00000000#32) :
    StableHlo.after (hostOps0_1 (F := Ideal)) Vl (Proc.devRef .tc main_v15) = Stage.dis x1 := by
  after_results
  show select (Vl (Proc.devRef .tc main_v11)) (Vl (Proc.devRef .tc main_v14)) (broadcastInDim S50000 ![] bcast_S_S50000 (Vl (Proc.devRef .tc main_cst_4))) = _
  rw [h11, h14, hc]
  rfl

theorem keep0_1_v1 : StableHlo.after (hostOps0_1 (F := Ideal)) Vl (Proc.devRef .tc main_v1) = Vl (Proc.devRef .tc main_v1) := by unwritten
theorem keep0_1_v3 : StableHlo.after (hostOps0_1 (F := Ideal)) Vl (Proc.devRef .tc main_v3) = Vl (Proc.devRef .tc main_v3) := by unwritten

/-! ## The third stretch: the edge weights and the loop weights -/

theorem ops0_2_v30 (x1 : (⟨S2x500000, .i32⟩ : BufTy).Contents (Elt Ideal))
    (h1 : Vl (Proc.devRef .tc main_v1) = Stage.src x1) (h3 : Vl (Proc.devRef .tc main_v3) = Stage.dst x1) (h15 : Vl (Proc.devRef .tc main_v15) = Stage.dis x1) :
    StableHlo.after (hostOps0_2 (F := Ideal)) Vl (Proc.devRef .tc main_v30) = Stage.norm x1 := by
  after_results_simp
  rw [h1, h3, h15]
  rfl

theorem ops0_2_v32 (x1 : (⟨S2x500000, .i32⟩ : BufTy).Contents (Elt Ideal)) (h15 : Vl (Proc.devRef .tc main_v15) = Stage.dis x1) :
    StableHlo.after (hostOps0_2 (F := Ideal)) Vl (Proc.devRef .tc main_v32) = Stage.selfCol x1 := by
  after_results
  rw [h15]
  rfl

theorem keep0_2_v1 : StableHlo.after (hostOps0_2 (F := Ideal)) Vl (Proc.devRef .tc main_v1) = Vl (Proc.devRef .tc main_v1) := by unwritten
theorem keep0_2_v3 : StableHlo.after (hostOps0_2 (F := Ideal)) Vl (Proc.devRef .tc main_v3) = Vl (Proc.devRef .tc main_v3) := by unwritten

/-! ## The stretch between the regions: the first aggregation and the bias row -/

theorem ops1_v49 (x1 : (⟨S2x500000, .i32⟩ : BufTy).Contents (Elt Ideal)) (P : (⟨S50000x128, .f32⟩ : BufTy).Contents (Elt Ideal))
    (h1 : Vl (Proc.devRef .tc main_v1) = Stage.src x1) (h3 : Vl (Proc.devRef .tc main_v3) = Stage.dst x1)
    (h30 : Vl (Proc.devRef .tc main_v30) = Stage.norm x1) (h32 : Vl (Proc.devRef .tc main_v32) = Stage.selfCol x1)
    (h33 : Vl (Proc.devRef .tc main_v33) = P) :
    StableHlo.after (hostOps1 (F := Ideal)) Vl (Proc.devRef .tc main_v49) = Stage.agg128 x1 P := by
  after_results_simp
  rw [h1, h3, h30, h32, h33]
  rfl

theorem ops1_v50 : StableHlo.after (hostOps1 (F := Ideal)) Vl (Proc.devRef .tc main_v50) = Stage.b1row (Vl (Proc.devRef .tc main_arg3)) := by
  after_results; rfl

theorem keep1_v1 : StableHlo.after (hostOps1 (F := Ideal)) Vl (Proc.devRef .tc main_v1) = Vl (Proc.devRef .tc main_v1) := by unwritten
theorem keep1_v3 : StableHlo.after (hostOps1 (F := Ideal)) Vl (Proc.devRef .tc main_v3) = Vl (Proc.devRef .tc main_v3) := by unwritten
theorem keep1_v30 : StableHlo.after (hostOps1 (F := Ideal)) Vl (Proc.devRef .tc main_v30) = Vl (Proc.devRef .tc main_v30) := by unwritten
theorem keep1_v32 : StableHlo.after (hostOps1 (F := Ideal)) Vl (Proc.devRef .tc main_v32) = Vl (Proc.devRef .tc main_v32) := by unwritten

/-! ## The last stretch: the second aggregation and the second bias -/

theorem ops2_v70 (x1 : (⟨S2x500000, .i32⟩ : BufTy).Contents (Elt Ideal)) (x5 : (⟨S64, .f32⟩ : BufTy).Contents (Elt Ideal))
    (Q : (⟨S50000x64, .f32⟩ : BufTy).Contents (Elt Ideal))
    (h1 : Vl (Proc.devRef .tc main_v1) = Stage.src x1) (h3 : Vl (Proc.devRef .tc main_v3) = Stage.dst x1)
    (h30 : Vl (Proc.devRef .tc main_v30) = Stage.norm x1) (h32 : Vl (Proc.devRef .tc main_v32) = Stage.selfCol x1)
    (h51 : Vl (Proc.devRef .tc main_v51) = Q) (h5 : Vl (Proc.devRef .tc main_arg5) = x5) :
    StableHlo.after (hostOps2 (F := Ideal)) Vl (Proc.devRef .tc main_v70) = Stage.out x1 x5 Q := by
  after_results_simp
  rw [h1, h3, h30, h32, h51, h5]
  rfl

end Cert.KernelIdeal.KRun

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.KRegion0.lean ====
/-
  The first kernel region's whole result. The region walks ten row blocks of 5000 rows; at each it multiplies the
  block of the left table by the whole right table and writes the product back as the same row block of the result.
  So the result array, after the region, is the matrix product of the two arrays the region found, row by row:
  result (r, c) = ∑ k < 256, left (r, k) · right (k, c).
-/
import proofs.«103109_j73512660238643_2_alg».proof.Proof.Gen.KernelIdeal.Frame
import proofs.«103109_j73512660238643_2_alg».proof.Proof.KStages
import proofs.«103109_j73512660238643_2_alg».proof.Proof.LibContract
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KRun

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- One block's product at an index of the block: the sum over the shared coordinate. -/
theorem pay0_apply (x0 : Vec Ideal S5000x256 .f32) (x1 : Vec Ideal S256x128 .f32) (j : S5000x128.Idx) :
    k0_pay1 x0 x1 j = ∑ k : Fin 256, x0 (ix2 (j 0) k) * x1 (ix2 k (j 1)) := by
  unfold k0_pay1
  refine (Ideal.matmul_constant_zero_apply dot_S5000x256_S256x128_S5000x128_1_0_0_1_n_n none _ _ j).trans ?_
  exact Contract2.sum_contr_eq_sum_fin dot_S5000x256_S256x128_S5000x128_1_0_0_1_n_n rfl rfl rfl rfl
    (fun _ _ => rfl) (fun _ _ => rfl) _ _ j

/-- A block's product at a block index is the whole product at an array index, once each row of the left block is the
    array's row and the right block is the whole right array. -/
theorem point0 (A0 : (⟨S50000x256, .f32⟩ : BufTy).Contents (Elt Ideal)) (A2 : (⟨S256x128, .f32⟩ : BufTy).Contents (Elt Ideal))
    (x0 : Vec Ideal S5000x256 .f32) (x1 : Vec Ideal S256x128 .f32) (j : S5000x128.Idx) (i : S50000x128.Idx)
    (h0 : ∀ k : Fin 256, x0 (ix2 (j 0) k) = A0 (ix2 (i 0) k))
    (h1 : ∀ k : Fin 256, x1 (ix2 k (j 1)) = A2 (ix2 k (i 1))) :
    k0_pay1 x0 x1 j = Stage.P1 A0 A2 i := by
  rw [pay0_apply]
  exact Finset.sum_congr rfl fun k _ => by rw [h0 k, h1 k]

/-- The printed index maps over the grid: the left window and the result window walk the row blocks together, point t
    at block t; the right window stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the whole product. -/
theorem flushed0_eq (c : Dev nD) (t : Fin cfg0.N) :
    (dat0 V c).flushed 2 t = ((cfg0.win 2).blk t).view.read (Elt Ideal) (Stage.P1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨e0, e1, e2, e3, e4, e5⟩ := idx_facts0 t
  funext j
  show k0_pay1 (iblk0 V c 0 t) (iblk0 V c 1 t) j = Stage.P1 (V c main_arg0) (V c main_arg2) (((cfg0.win 2).blk t).view.emb j)
  refine point0 (V c main_arg0) (V c main_arg2) (iblk0 V c 0 t) (iblk0 V c 1 t) j (((cfg0.win 2).blk t).view.emb j) (fun k => ?_) (fun k => ?_)
  · show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg2 (((cfg0.win 1).blk t).view.emb (ix2 k (j 1))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Every row of the result is in the block of the point its row block names. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  refine ⟨⟨(i 0).val / 5000, by rw [show cfg0.N = 10 from N_0]; omega⟩, flush0_2 _, ?_⟩
  rw [mem_blk0]
  obtain ⟨e0, e1, e2, e3, e4, e5⟩ := idx_facts0 ⟨(i 0).val / 5000, by rw [show cfg0.N = 10 from N_0]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The result array after the region is the whole product of the two arrays the region found. -/
theorem region0 (c : Dev nD) : (dat0 V c).arrAt 2 cfg0.N = Stage.P1 (V c main_arg0) (V c main_arg2) :=
  (dat0 V c).arrAt_eq_of_cover 2 (Stage.P1 (V c main_arg0) (V c main_arg2)) (fun t _ => flushed0_eq V c t) (cover0)

end

end Cert.KernelIdeal.KRun

end
-- ==== Proof.KRegion1.lean ====
/-
  The second kernel region's whole result. The region walks ten row blocks of 5000 rows; at each it adds the bias row
  to every row of the block of the table, floors the sum at zero, multiplies by the whole weight table and writes the
  product back as the same row block of the result. So the result array, after the region, is, row by row,
  result (r, c) = ∑ k < 128, max (table (r, k) + bias (0, k)) 0 · weight (k, c).
-/
import proofs.«103109_j73512660238643_2_alg».proof.Proof.Gen.KernelIdeal.Frame
import proofs.«103109_j73512660238643_2_alg».proof.Proof.KStages
import proofs.«103109_j73512660238643_2_alg».proof.Proof.LibContract
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KRun

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets1 : (![0, 0] : Fin 2 → Nat) = fun _ => 0 := funext fun a => by fin_cases a <;> rfl

/-- The rectified, biased table times the weights, as one function of the three arrays the region reads. -/
def rowsRelu (A : (⟨S50000x128, .f32⟩ : BufTy).Contents (Elt Ideal)) (B : (⟨S1x128, .f32⟩ : BufTy).Contents (Elt Ideal))
    (W : (⟨S128x64, .f32⟩ : BufTy).Contents (Elt Ideal)) : (⟨S50000x64, .f32⟩ : BufTy).Contents (Elt Ideal) :=
  fun j => ∑ k : Fin 128, max (A (ix2 (j 0) k) + B (ix2 (0 : Fin 1) k)) Stage.zf * W (ix2 k (j 1))

/-- The bias row broadcast along the rows reads the row's entry at the column. -/
theorem bias_apply (x1 : Vec Ideal S1x128 .f32) (p : Fin 5000) (k : Fin 128) :
    broadcastTo S5000x128 x1 broadcasts_S1x128_S5000x128 (ix2 p k) = x1 (ix2 (0 : Fin 1) k) :=
  broadcastTo_apply x1 broadcasts_S1x128_S5000x128 (ix2 p k) (ix2 (0 : Fin 1) k) fun a => by
    match a with
    | ⟨0, _⟩ => rfl
    | ⟨1, _⟩ => rfl

/-- One block's product at an index of the block. -/
theorem pay1_apply (x0 : Vec Ideal S5000x128 .f32) (x1 : Vec Ideal S1x128 .f32) (x2 : Vec Ideal S128x64 .f32) (j : S5000x64.Idx) :
    k1_pay1 x0 x1 x2 j = ∑ k : Fin 128, max (x0 (ix2 (j 0) k) + x1 (ix2 (0 : Fin 1) k)) Stage.zf * x2 (ix2 k (j 1)) := by
  unfold k1_pay1
  refine (Ideal.matmul_constant_zero_apply dot_S5000x128_S128x64_S5000x64_1_0_0_1_n_n none _ _ j).trans ?_
  refine (Contract2.sum_contr_eq_sum_fin dot_S5000x128_S128x64_S5000x64_1_0_0_1_n_n rfl rfl rfl rfl
    (fun _ _ => rfl) (fun _ _ => rfl) _ _ j).trans ?_
  refine Finset.sum_congr rfl fun k _ => ?_
  rw [shapeCast_self, shapeCast_self]
  show max (x0 (ix2 (j 0) k) + broadcastTo S5000x128 x1 broadcasts_S1x128_S5000x128 (ix2 (j 0) k)) Stage.zf * x2 (ix2 k (j 1)) = _
  exact congrArg (fun z => max (x0 (ix2 (j 0) k) + z) Stage.zf * x2 (ix2 k (j 1))) (bias_apply x1 (j 0) k)

/-- A block's product at a block index is the whole function at an array index, once each row of the table block is
    the array's row and the other two blocks are their whole arrays. -/
theorem point1 (A : (⟨S50000x128, .f32⟩ : BufTy).Contents (Elt Ideal)) (B : (⟨S1x128, .f32⟩ : BufTy).Contents (Elt Ideal))
    (W : (⟨S128x64, .f32⟩ : BufTy).Contents (Elt Ideal))
    (x0 : Vec Ideal S5000x128 .f32) (x1 : Vec Ideal S1x128 .f32) (x2 : Vec Ideal S128x64 .f32) (j : S5000x64.Idx) (i : S50000x64.Idx)
    (h0 : ∀ k : Fin 128, x0 (ix2 (j 0) k) = A (ix2 (i 0) k))
    (h1 : ∀ k : Fin 128, x1 (ix2 (0 : Fin 1) k) = B (ix2 (0 : Fin 1) k))
    (h2 : ∀ k : Fin 128, x2 (ix2 k (j 1)) = W (ix2 k (i 1))) :
    k1_pay1 x0 x1 x2 j = rowsRelu A B W i := by
  rw [pay1_apply]
  exact Finset.sum_congr rfl fun k _ => by rw [h0 k, h1 k, h2 k]

/-- The printed index maps over the grid: the table window and the result window walk the row blocks together, point t
    at block t; the bias and weight windows stay at their one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What point t writes back is block t of the whole function. -/
theorem flushed1_eq (c : Dev nD) (t : Fin cfg1.N) :
    (dat1 V c).flushed 3 t = ((cfg1.win 3).blk t).view.read (Elt Ideal) (rowsRelu (V c main_v49) (V c main_v50) (V c main_arg4)) := by
  show (cfg1.win 3).cut (grid1.coords t) ((dat1 V c).after 3 t) = _
  rw [after1_3]
  unfold out1_3
  rw [View.canon_unit_zero zero_offsets1]
  simp only [View.ld_unit_zero (S := S5000x128) zero_offsets1, View.ld_unit_zero (S := S1x128) zero_offsets1, View.ld_unit_zero (S := S128x64) zero_offsets1]
  obtain ⟨e0, e1, e2, e3, e4, e5, e6, e7⟩ := idx_facts1 t
  funext j
  show k1_pay1 (iblk1 V c 0 t) (iblk1 V c 1 t) (iblk1 V c 2 t) j = rowsRelu (V c main_v49) (V c main_v50) (V c main_arg4) (((cfg1.win 3).blk t).view.emb j)
  refine point1 (V c main_v49) (V c main_v50) (V c main_arg4) (iblk1 V c 0 t) (iblk1 V c 1 t) (iblk1 V c 2 t) j (((cfg1.win 3).blk t).view.emb j) (fun k => ?_) (fun k => ?_) (fun k => ?_)
  · show V c main_v49 (((cfg1.win 0).blk t).view.emb (ix2 (j 0) k)) = _
    refine congrArg (V c main_v49) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show V c main_v50 (((cfg1.win 1).blk t).view.emb (ix2 (0 : Fin 1) k)) = _
    refine congrArg (V c main_v50) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg4 (((cfg1.win 2).blk t).view.emb (ix2 k (j 1))) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 64 + 1 * (j 1).val = win1_3.index t (1 : Fin 2) * 64 + 1 * (j 1).val; omega

/-- An index of the result array is in point t's block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v51).slice (win1_3.rect t)).set ↔ _
  rw [View.set_slice_whole, Rect.mem_set_unit]
  exact Iff.rfl

/-- Every row of the result is in the block of the point its row block names. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  refine ⟨⟨(i 0).val / 5000, by rw [show cfg1.N = 10 from N_1]; omega⟩, flush1_3 _, ?_⟩
  rw [mem_blk1]
  obtain ⟨e0, e1, e2, e3, e4, e5, e6, e7⟩ := idx_facts1 ⟨(i 0).val / 5000, by rw [show cfg1.N = 10 from N_1]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e7]; omega

/-- The result array after the region is the whole function of the three arrays the region found. -/
theorem region1 (c : Dev nD) : (dat1 V c).arrAt 3 cfg1.N = rowsRelu (V c main_v49) (V c main_v50) (V c main_arg4) :=
  (dat1 V c).arrAt_eq_of_cover 3 (rowsRelu (V c main_v49) (V c main_v50) (V c main_arg4)) (fun t _ => flushed1_eq V c t) (cover1)

end

/-- With the bias row the reshaped bias vector, the function is the second region's stage. -/
theorem rowsRelu_b1row (A : (⟨S50000x128, .f32⟩ : BufTy).Contents (Elt Ideal)) (x3 : (⟨S128, .f32⟩ : BufTy).Contents (Elt Ideal))
    (W : (⟨S128x64, .f32⟩ : BufTy).Contents (Elt Ideal)) : rowsRelu A (Stage.b1row x3) W = Stage.P2 A x3 W := by
  funext j
  unfold rowsRelu Stage.P2 Stage.b1row
  refine Finset.sum_congr rfl fun k _ => ?_
  have e : shapeCast S1x128 x3 shapeCasts_S128_S1x128 (ix2 (0 : Fin 1) k) = x3 (ix1 k) :=
    (shapeCast_addUnit_apply ![128] x3 shapeCasts_S128_S1x128 (ix2 (0 : Fin 1) k)).trans
      (congrArg x3 (funext fun a => by match a with | ⟨0, _⟩ => rfl))
  rw [e]

end Cert.KernelIdeal.KRun

end
-- ==== Proof.KWalk.lean ====
/-
  The kernel program's result buffer, walked back from the last boundary to the launch memory: through the last host
  stretch to the second region's result, through that region to the first aggregation and the bias row, through the
  stretch between the regions to the first region's result, and through the first three stretches to the argument
  arrays. At every boundary each buffer a later stage reads holds the stage (KStages) of the arguments.
-/
import proofs.«103109_j73512660238643_2_alg».proof.Proof.Gen.KernelIdeal.Frame
import proofs.«103109_j73512660238643_2_alg».proof.Proof.KStages
import proofs.«103109_j73512660238643_2_alg».proof.Proof.KHost
import proofs.«103109_j73512660238643_2_alg».proof.Proof.KRegion0
import proofs.«103109_j73512660238643_2_alg».proof.Proof.KRegion1

set_option maxRecDepth 16384

noncomputable section

namespace Cert.KernelIdeal.KRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## After the first stretch -/

theorem W1_v1 : W1 m ρ c (Proc.devRef .tc main_v1) = Stage.src (m ((c : Thread nD τ).loc main_arg1)) := ops0_v1 (W0 m ρ c)
theorem W1_v3 : W1 m ρ c (Proc.devRef .tc main_v3) = Stage.dst (m ((c : Thread nD τ).loc main_arg1)) := ops0_v3 (W0 m ρ c)
theorem W1_v11 : W1 m ρ c (Proc.devRef .tc main_v11)
    = cmpf .ogt (Stage.deg (m ((c : Thread nD τ).loc main_arg1))) (broadcastInDim S50000 ![] bcast_S_S50000 (constant (F := Ideal) S_ .f32 0x00000000#32)) := ops0_v11 (W0 m ρ c)
theorem W1_v14 : W1 m ρ c (Proc.devRef .tc main_v14)
    = Host.rsqrt (F := Ideal) (maximumf (Stage.deg (m ((c : Thread nD τ).loc main_arg1))) (broadcastInDim S50000 ![] bcast_S_S50000 (constant (F := Ideal) S_ .f32 0x2B8CBCCC#32))) := ops0_v14 (W0 m ρ c)
theorem W1_cst_4 : W1 m ρ c (Proc.devRef .tc main_cst_4) = constant (F := Ideal) S_ .f32 0x00000000#32 := ops0_cst_4 (W0 m ρ c)
theorem W1_arg0 : W1 m ρ c (Proc.devRef .tc main_arg0) = m ((c : Thread nD τ).loc main_arg0) :=
  (by unwritten : StableHlo.after (hostOps0 (F := Ideal)) (W0 m ρ c) (Proc.devRef .tc main_arg0) = W0 m ρ c (Proc.devRef .tc main_arg0)).trans rfl
theorem W1_arg2 : W1 m ρ c (Proc.devRef .tc main_arg2) = m ((c : Thread nD τ).loc main_arg2) :=
  (by unwritten : StableHlo.after (hostOps0 (F := Ideal)) (W0 m ρ c) (Proc.devRef .tc main_arg2) = W0 m ρ c (Proc.devRef .tc main_arg2)).trans rfl
theorem W1_arg3 : W1 m ρ c (Proc.devRef .tc main_arg3) = m ((c : Thread nD τ).loc main_arg3) :=
  (by unwritten : StableHlo.after (hostOps0 (F := Ideal)) (W0 m ρ c) (Proc.devRef .tc main_arg3) = W0 m ρ c (Proc.devRef .tc main_arg3)).trans rfl
theorem W1_arg4 : W1 m ρ c (Proc.devRef .tc main_arg4) = m ((c : Thread nD τ).loc main_arg4) :=
  (by unwritten : StableHlo.after (hostOps0 (F := Ideal)) (W0 m ρ c) (Proc.devRef .tc main_arg4) = W0 m ρ c (Proc.devRef .tc main_arg4)).trans rfl
theorem W1_arg5 : W1 m ρ c (Proc.devRef .tc main_arg5) = m ((c : Thread nD τ).loc main_arg5) :=
  (by unwritten : StableHlo.after (hostOps0 (F := Ideal)) (W0 m ρ c) (Proc.devRef .tc main_arg5) = W0 m ρ c (Proc.devRef .tc main_arg5)).trans rfl

/-! ## After the second stretch -/

theorem W2_v1 : W2 m ρ c (Proc.devRef .tc main_v1) = Stage.src (m ((c : Thread nD τ).loc main_arg1)) := (keep0_1_v1 (W1 m ρ c)).trans (W1_v1 m ρ c)
theorem W2_v3 : W2 m ρ c (Proc.devRef .tc main_v3) = Stage.dst (m ((c : Thread nD τ).loc main_arg1)) := (keep0_1_v3 (W1 m ρ c)).trans (W1_v3 m ρ c)
theorem W2_v15 : W2 m ρ c (Proc.devRef .tc main_v15) = Stage.dis (m ((c : Thread nD τ).loc main_arg1)) :=
  ops0_1_v15 (W1 m ρ c) (m ((c : Thread nD τ).loc main_arg1)) (W1_v11 m ρ c) (W1_v14 m ρ c) (W1_cst_4 m ρ c)
theorem W2_arg0 : W2 m ρ c (Proc.devRef .tc main_arg0) = m ((c : Thread nD τ).loc main_arg0) :=
  (by unwritten : StableHlo.after (hostOps0_1 (F := Ideal)) (W1 m ρ c) (Proc.devRef .tc main_arg0) = W1 m ρ c (Proc.devRef .tc main_arg0)).trans (W1_arg0 m ρ c)
theorem W2_arg2 : W2 m ρ c (Proc.devRef .tc main_arg2) = m ((c : Thread nD τ).loc main_arg2) :=
  (by unwritten : StableHlo.after (hostOps0_1 (F := Ideal)) (W1 m ρ c) (Proc.devRef .tc main_arg2) = W1 m ρ c (Proc.devRef .tc main_arg2)).trans (W1_arg2 m ρ c)
theorem W2_arg3 : W2 m ρ c (Proc.devRef .tc main_arg3) = m ((c : Thread nD τ).loc main_arg3) :=
  (by unwritten : StableHlo.after (hostOps0_1 (F := Ideal)) (W1 m ρ c) (Proc.devRef .tc main_arg3) = W1 m ρ c (Proc.devRef .tc main_arg3)).trans (W1_arg3 m ρ c)
theorem W2_arg4 : W2 m ρ c (Proc.devRef .tc main_arg4) = m ((c : Thread nD τ).loc main_arg4) :=
  (by unwritten : StableHlo.after (hostOps0_1 (F := Ideal)) (W1 m ρ c) (Proc.devRef .tc main_arg4) = W1 m ρ c (Proc.devRef .tc main_arg4)).trans (W1_arg4 m ρ c)
theorem W2_arg5 : W2 m ρ c (Proc.devRef .tc main_arg5) = m ((c : Thread nD τ).loc main_arg5) :=
  (by unwritten : StableHlo.after (hostOps0_1 (F := Ideal)) (W1 m ρ c) (Proc.devRef .tc main_arg5) = W1 m ρ c (Proc.devRef .tc main_arg5)).trans (W1_arg5 m ρ c)

/-! ## After the third stretch: the first region's entry -/

theorem W3_v1 : W3 m ρ c (Proc.devRef .tc main_v1) = Stage.src (m ((c : Thread nD τ).loc main_arg1)) := (keep0_2_v1 (W2 m ρ c)).trans (W2_v1 m ρ c)
theorem W3_v3 : W3 m ρ c (Proc.devRef .tc main_v3) = Stage.dst (m ((c : Thread nD τ).loc main_arg1)) := (keep0_2_v3 (W2 m ρ c)).trans (W2_v3 m ρ c)
theorem W3_v30 : W3 m ρ c (Proc.devRef .tc main_v30) = Stage.norm (m ((c : Thread nD τ).loc main_arg1)) :=
  ops0_2_v30 (W2 m ρ c) (m ((c : Thread nD τ).loc main_arg1)) (W2_v1 m ρ c) (W2_v3 m ρ c) (W2_v15 m ρ c)
theorem W3_v32 : W3 m ρ c (Proc.devRef .tc main_v32) = Stage.selfCol (m ((c : Thread nD τ).loc main_arg1)) :=
  ops0_2_v32 (W2 m ρ c) (m ((c : Thread nD τ).loc main_arg1)) (W2_v15 m ρ c)
theorem W3_arg0 : W3 m ρ c (Proc.devRef .tc main_arg0) = m ((c : Thread nD τ).loc main_arg0) :=
  (by unwritten : StableHlo.after (hostOps0_2 (F := Ideal)) (W2 m ρ c) (Proc.devRef .tc main_arg0) = W2 m ρ c (Proc.devRef .tc main_arg0)).trans (W2_arg0 m ρ c)
theorem W3_arg2 : W3 m ρ c (Proc.devRef .tc main_arg2) = m ((c : Thread nD τ).loc main_arg2) :=
  (by unwritten : StableHlo.after (hostOps0_2 (F := Ideal)) (W2 m ρ c) (Proc.devRef .tc main_arg2) = W2 m ρ c (Proc.devRef .tc main_arg2)).trans (W2_arg2 m ρ c)
theorem W3_arg3 : W3 m ρ c (Proc.devRef .tc main_arg3) = m ((c : Thread nD τ).loc main_arg3) :=
  (by unwritten : StableHlo.after (hostOps0_2 (F := Ideal)) (W2 m ρ c) (Proc.devRef .tc main_arg3) = W2 m ρ c (Proc.devRef .tc main_arg3)).trans (W2_arg3 m ρ c)
theorem W3_arg4 : W3 m ρ c (Proc.devRef .tc main_arg4) = m ((c : Thread nD τ).loc main_arg4) :=
  (by unwritten : StableHlo.after (hostOps0_2 (F := Ideal)) (W2 m ρ c) (Proc.devRef .tc main_arg4) = W2 m ρ c (Proc.devRef .tc main_arg4)).trans (W2_arg4 m ρ c)
theorem W3_arg5 : W3 m ρ c (Proc.devRef .tc main_arg5) = m ((c : Thread nD τ).loc main_arg5) :=
  (by unwritten : StableHlo.after (hostOps0_2 (F := Ideal)) (W2 m ρ c) (Proc.devRef .tc main_arg5) = W2 m ρ c (Proc.devRef .tc main_arg5)).trans (W2_arg5 m ρ c)

/-! ## The first region's exit: its result is X · W1, every other buffer as entered -/

theorem W4_v33 : W4 m ρ c (Proc.devRef .tc main_v33) = Stage.P1 (m ((c : Thread nD τ).loc main_arg0)) (m ((c : Thread nD τ).loc main_arg2)) :=
  (W4_arr m ρ c 2).trans ((region0 (V3 m ρ) c).trans (congrArg₂ Stage.P1 (W3_arg0 m ρ c) (W3_arg2 m ρ c)))
theorem W4_v1 : W4 m ρ c (Proc.devRef .tc main_v1) = Stage.src (m ((c : Thread nD τ).loc main_arg1)) := (W4_of_ne m ρ c main_v1 (by decide)).trans (W3_v1 m ρ c)
theorem W4_v3 : W4 m ρ c (Proc.devRef .tc main_v3) = Stage.dst (m ((c : Thread nD τ).loc main_arg1)) := (W4_of_ne m ρ c main_v3 (by decide)).trans (W3_v3 m ρ c)
theorem W4_v30 : W4 m ρ c (Proc.devRef .tc main_v30) = Stage.norm (m ((c : Thread nD τ).loc main_arg1)) := (W4_of_ne m ρ c main_v30 (by decide)).trans (W3_v30 m ρ c)
theorem W4_v32 : W4 m ρ c (Proc.devRef .tc main_v32) = Stage.selfCol (m ((c : Thread nD τ).loc main_arg1)) := (W4_of_ne m ρ c main_v32 (by decide)).trans (W3_v32 m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)

/-! ## After the stretch between the regions: the second region's entry -/

theorem W5_v49 : W5 m ρ c (Proc.devRef .tc main_v49) = Stage.agg128 (m ((c : Thread nD τ).loc main_arg1)) (Stage.P1 (m ((c : Thread nD τ).loc main_arg0)) (m ((c : Thread nD τ).loc main_arg2))) :=
  ops1_v49 (W4 m ρ c) (m ((c : Thread nD τ).loc main_arg1)) (Stage.P1 (m ((c : Thread nD τ).loc main_arg0)) (m ((c : Thread nD τ).loc main_arg2))) (W4_v1 m ρ c) (W4_v3 m ρ c) (W4_v30 m ρ c) (W4_v32 m ρ c) (W4_v33 m ρ c)
theorem W5_v50 : W5 m ρ c (Proc.devRef .tc main_v50) = Stage.b1row (m ((c : Thread nD τ).loc main_arg3)) :=
  (ops1_v50 (W4 m ρ c)).trans (congrArg Stage.b1row (W4_arg3 m ρ c))
theorem W5_v1 : W5 m ρ c (Proc.devRef .tc main_v1) = Stage.src (m ((c : Thread nD τ).loc main_arg1)) := (keep1_v1 (W4 m ρ c)).trans (W4_v1 m ρ c)
theorem W5_v3 : W5 m ρ c (Proc.devRef .tc main_v3) = Stage.dst (m ((c : Thread nD τ).loc main_arg1)) := (keep1_v3 (W4 m ρ c)).trans (W4_v3 m ρ c)
theorem W5_v30 : W5 m ρ c (Proc.devRef .tc main_v30) = Stage.norm (m ((c : Thread nD τ).loc main_arg1)) := (keep1_v30 (W4 m ρ c)).trans (W4_v30 m ρ c)
theorem W5_v32 : W5 m ρ c (Proc.devRef .tc main_v32) = Stage.selfCol (m ((c : Thread nD τ).loc main_arg1)) := (keep1_v32 (W4 m ρ c)).trans (W4_v32 m ρ c)
theorem W5_arg4 : W5 m ρ c (Proc.devRef .tc main_arg4) = m ((c : Thread nD τ).loc main_arg4) :=
  (by unwritten : StableHlo.after (hostOps1 (F := Ideal)) (W4 m ρ c) (Proc.devRef .tc main_arg4) = W4 m ρ c (Proc.devRef .tc main_arg4)).trans (W4_arg4 m ρ c)
theorem W5_arg5 : W5 m ρ c (Proc.devRef .tc main_arg5) = m ((c : Thread nD τ).loc main_arg5) :=
  (by unwritten : StableHlo.after (hostOps1 (F := Ideal)) (W4 m ρ c) (Proc.devRef .tc main_arg5) = W4 m ρ c (Proc.devRef .tc main_arg5)).trans (W4_arg5 m ρ c)

/-! ## The second region's exit: its result is relu (agg P1 + b1) · W2, every other buffer as entered -/

theorem rowsRelu_congr {A A' : (⟨S50000x128, .f32⟩ : BufTy).Contents (Elt Ideal)} {B B' : (⟨S1x128, .f32⟩ : BufTy).Contents (Elt Ideal)}
    {W W' : (⟨S128x64, .f32⟩ : BufTy).Contents (Elt Ideal)} (hA : A = A') (hB : B = B') (hW : W = W') :
    rowsRelu A B W = rowsRelu A' B' W' := by subst hA hB hW; rfl

theorem W6_v51 : W6 m ρ c (Proc.devRef .tc main_v51) = Stage.P2 (Stage.agg128 (m ((c : Thread nD τ).loc main_arg1)) (Stage.P1 (m ((c : Thread nD τ).loc main_arg0)) (m ((c : Thread nD τ).loc main_arg2)))) (m ((c : Thread nD τ).loc main_arg3)) (m ((c : Thread nD τ).loc main_arg4)) :=
  (W6_arr m ρ c 3).trans ((region1 (V5 m ρ) c).trans
    ((rowsRelu_congr (W5_v49 m ρ c) (W5_v50 m ρ c) (W5_arg4 m ρ c)).trans (rowsRelu_b1row _ _ _)))
theorem W6_v1 : W6 m ρ c (Proc.devRef .tc main_v1) = Stage.src (m ((c : Thread nD τ).loc main_arg1)) := (W6_of_ne m ρ c main_v1 (by decide)).trans (W5_v1 m ρ c)
theorem W6_v3 : W6 m ρ c (Proc.devRef .tc main_v3) = Stage.dst (m ((c : Thread nD τ).loc main_arg1)) := (W6_of_ne m ρ c main_v3 (by decide)).trans (W5_v3 m ρ c)
theorem W6_v30 : W6 m ρ c (Proc.devRef .tc main_v30) = Stage.norm (m ((c : Thread nD τ).loc main_arg1)) := (W6_of_ne m ρ c main_v30 (by decide)).trans (W5_v30 m ρ c)
theorem W6_v32 : W6 m ρ c (Proc.devRef .tc main_v32) = Stage.selfCol (m ((c : Thread nD τ).loc main_arg1)) := (W6_of_ne m ρ c main_v32 (by decide)).trans (W5_v32 m ρ c)
theorem W6_arg5 : W6 m ρ c (Proc.devRef .tc main_arg5) = m ((c : Thread nD τ).loc main_arg5) := (W6_of_ne m ρ c main_arg5 (by decide)).trans (W5_arg5 m ρ c)

/-! ## After the last stretch: the result buffer -/

theorem W7_v70 : W7 m ρ c (Proc.devRef .tc main_v70)
    = Stage.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ops2_v70 (W6 m ρ c) (m ((c : Thread nD τ).loc main_arg1)) (m ((c : Thread nD τ).loc main_arg5)) (Stage.P2 (Stage.agg128 (m ((c : Thread nD τ).loc main_arg1)) (Stage.P1 (m ((c : Thread nD τ).loc main_arg0)) (m ((c : Thread nD τ).loc main_arg2)))) (m ((c : Thread nD τ).loc main_arg3)) (m ((c : Thread nD τ).loc main_arg4)))
    (W6_v1 m ρ c) (W6_v3 m ρ c) (W6_v30 m ρ c) (W6_v32 m ρ c) (W6_v51 m ρ c) (W6_arg5 m ρ c)

end Cert.KernelIdeal.KRun

end
-- ==== Proof.KRun.lean ====
/-
  The kernel program's run, read: from any launch memory every weakly fair execution of @main terminates without a
  fault, the result buffer ends at the kernel program's result as one function of the six argument arrays
  (KStages' `Stage.result`), and the argument arrays end as launched.
-/
import proofs.«103109_j73512660238643_2_alg».proof.Proof.KRunKit
import proofs.«103109_j73512660238643_2_alg».proof.Proof.KWalk

noncomputable section

namespace Cert.KernelIdeal.KRun

open Cert.KernelIdeal Cert.KernelIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = Stage.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_v70 m ρ c), (h c).2⟩) (run_W7 m ρ)

end Cert.KernelIdeal.KRun

end
-- ==== Proof.lean ====
/-
  A two-layer graph convolution on 50000 nodes and 500000 directed edges: the kernel program against its reference,
  as exact functions on the extended reals.

  With deg the number of edges into a node plus one for its own loop and dis = deg^(-1/2), one layer sends a table P to
      agg P (i, c) = ∑ over edges e into i of P (src e, c) * (dis (src e) * dis (dst e)) + dis i * dis i * P (i, c).
  The result is agg (relu (agg (X · W1) + b1) · W2) + b2. The kernel program computes the two matrix products in two
  row-blocked regions (ten blocks of 5000 rows each; every block of a region's output is the product's rows of that
  block, so the region leaves the whole product) and everything else in host operations, adding the loop terms
  densely. The reference appends the 50000 loops to the edge lists and sums over the joined lists. The two agree
  entry by entry: position 500000 + j of a joined list is node j's own number, so its term is the dense loop term,
  and what is left is associativity of the sums and commutativity of one product, which hold for all extended reals
  (no finiteness of the inputs is used). The word-level program's idealization rewrote nothing.

  Modules: KStages (the kernel's host stages as functions of the arguments), KRun and its parts (the kernel program's
  run ends at those stages of the arguments), GraphRead and GraphLaw (a layer's operations read at an entry for any
  extents, and loops-as-edges against loops-added-densely), Bridge (the two programs' results are one function).
-/
import proofs.«103109_j73512660238643_2_alg».proof.Defs
import proofs.«103109_j73512660238643_2_alg».proof.Proof.Gen.Kernel
import proofs.«103109_j73512660238643_2_alg».proof.Proof.Gen.Kernel.Skeleton
import proofs.«103109_j73512660238643_2_alg».proof.Proof.Gen.Kernel.Launch
import proofs.«103109_j73512660238643_2_alg».proof.Proof.Gen.Kernel.Points
import proofs.«103109_j73512660238643_2_alg».proof.Proof.Gen.Kernel.Frame
import proofs.«103109_j73512660238643_2_alg».proof.Proof.Gen.KernelIdeal
import proofs.«103109_j73512660238643_2_alg».proof.Proof.Gen.KernelIdeal.Skeleton
import proofs.«103109_j73512660238643_2_alg».proof.Proof.Gen.KernelIdeal.Launch
import proofs.«103109_j73512660238643_2_alg».proof.Proof.Gen.KernelIdeal.Points
import proofs.«103109_j73512660238643_2_alg».proof.Proof.Gen.KernelIdeal.Frame
import proofs.«103109_j73512660238643_2_alg».proof.Proof.Gen.ReferenceIdeal
import proofs.«103109_j73512660238643_2_alg».proof.Proof.Gen.Pre_finite_inputs
import proofs.«103109_j73512660238643_2_alg».proof.Proof.RefRunP
import proofs.«103109_j73512660238643_2_alg».proof.Proof.RefReadP
import proofs.«103109_j73512660238643_2_alg».proof.Proof.Bridge
import proofs.«103109_j73512660238643_2_alg».proof.Proof.KRun
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end, from memories agreeing on the arguments, with the same result array: the
    kernel program's stages of the arguments, which are the reference's (Bridge.result_eq). -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1,
    (hagree c).2.2.2.2.1, (hagree c).2.2.2.2.2]
  exact (Cert.Bridge.result_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
